-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S1x32 .f32) (main_arg6 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x512x128 .f32) (main_arg1 : FVec F S64x128 .f32) (main_arg2 : FVec F S64 .f32) (main_arg3 : FVec F S32x64 .f32) (main_arg4 : FVec F S32 .f32) (main_arg5 : FVec F S1x32 .f32) (main_arg6 : FVec F S1 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S4x512x128 : Shape := ⟨3, ![4, 512, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x64x1 : Shape := ⟨3, ![1, 64, 1]⟩
abbrev S1x32x1 : Shape := ⟨3, ![1, 32, 1]⟩
abbrev S1x1x1 : Shape := ⟨3, ![1, 1, 1]⟩
abbrev S4x512x512 : Shape := ⟨3, ![4, 512, 512]⟩
abbrev S1x64x128 : Shape := ⟨3, ![1, 64, 128]⟩
abbrev S1x512x128 : Shape := ⟨3, ![1, 512, 128]⟩
abbrev S1x64x512 : Shape := ⟨3, ![1, 64, 512]⟩
abbrev S128x512 : Shape := ⟨2, ![128, 512]⟩
abbrev S512x128 : Shape := ⟨2, ![512, 128]⟩
abbrev S64x128x1 : Shape := ⟨3, ![64, 128, 1]⟩
abbrev S1x128x512 : Shape := ⟨3, ![1, 128, 512]⟩
abbrev S64x128x512 : Shape := ⟨3, ![64, 128, 512]⟩
abbrev S64x64x128 : Shape := ⟨3, ![64, 64, 128]⟩
abbrev S64x64x512 : Shape := ⟨3, ![64, 64, 512]⟩
abbrev S1x32x64 : Shape := ⟨3, ![1, 32, 64]⟩
abbrev S64x32x64 : Shape := ⟨3, ![64, 32, 64]⟩
abbrev S64x32x512 : Shape := ⟨3, ![64, 32, 512]⟩
abbrev S1x1x32 : Shape := ⟨3, ![1, 1, 32]⟩
abbrev S64x1x32 : Shape := ⟨3, ![64, 1, 32]⟩
abbrev S64x1x512 : Shape := ⟨3, ![64, 1, 512]⟩
abbrev S64x512 : Shape := ⟨2, ![64, 512]⟩
abbrev S64x1 : Shape := ⟨2, ![64, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x512x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S64x128, .bf16⟩
  | .hbm, ⟨8, _⟩ => ⟨S32x64, .bf16⟩
  | .hbm, ⟨9, _⟩ => ⟨S1x32, .bf16⟩
  | .hbm, ⟨10, _⟩ => ⟨S1x64x1, .f32⟩
  | .hbm, ⟨11, _⟩ => ⟨S1x32x1, .f32⟩
  | .hbm, ⟨12, _⟩ => ⟨S1x1x1, .f32⟩
  | .hbm, ⟨13, _⟩ => ⟨S4x512x512, .f32⟩
  | .local _ .vmem, ⟨0, _⟩ => ⟨S1x64x128, .f32⟩
  | .local _ .vmem, ⟨1, _⟩ => ⟨S1x64x128, .f32⟩
  | .local _ .vmem, ⟨2, _⟩ => ⟨S1x512x128, .f32⟩
  | .local _ .vmem, ⟨3, _⟩ => ⟨S1x512x128, .f32⟩
  | .local _ .vmem, ⟨4, _⟩ => ⟨S64x128, .bf16⟩
  | .local _ .vmem, ⟨5, _⟩ => ⟨S1x64x1, .f32⟩
  | .local _ .vmem, ⟨6, _⟩ => ⟨S32x64, .bf16⟩
  | .local _ .vmem, ⟨7, _⟩ => ⟨S1x32x1, .f32⟩
  | .local _ .vmem, ⟨8, _⟩ => ⟨S1x32, .bf16⟩
  | .local _ .vmem, ⟨9, _⟩ => ⟨S1x1x1, .f32⟩
  | .local _ .vmem, ⟨10, _⟩ => ⟨S1x64x512, .f32⟩
  | .local _ .vmem, ⟨11, _⟩ => ⟨S1x64x512, .f32⟩
  | .local _ .vmem, ⟨12, _⟩ => ⟨S128x512, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S64_S1x64x1 : S64.ShapeCasts S1x64x1
  shapeCasts_S32_S1x32x1 : S32.ShapeCasts S1x32x1
  shapeCasts_S1_S1x1x1 : S1.ShapeCasts S1x1x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S64x128x1 : S64x128.ShapeCasts S64x128x1
  shapeCasts_S128x512_S1x128x512 : S128x512.ShapeCasts S1x128x512
  broadcasts_S64x128x1_S64x128x512 : S64x128x1.Broadcasts S64x128x512
  broadcasts_S1x128x512_S64x128x512 : S1x128x512.Broadcasts S64x128x512
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S1x64x128 : S64x128.ShapeCasts S1x64x128
  shapeCasts_S1x64x128_S1x64x128 : S1x64x128.ShapeCasts S1x64x128
  broadcasts_S1x64x128_S64x64x128 : S1x64x128.Broadcasts S64x64x128
  inb_S1x64x1_S1x64x1_0_0_0 : ∀ a, (![0, 0, 0] : Fin 3 → Nat) a + S1x64x1.size a ≤ S1x64x1.size a
  h_S1x64x1 : 0 < S1x64x1.numel
  shapeCasts_S1x64x1_S1x64x1 : S1x64x1.ShapeCasts S1x64x1
  broadcasts_S1x64x1_S64x64x512 : S1x64x1.Broadcasts S64x64x512
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S32x64_S1x32x64 : S32x64.ShapeCasts S1x32x64
  shapeCasts_S1x32x64_S1x32x64 : S1x32x64.ShapeCasts S1x32x64
  broadcasts_S1x32x64_S64x32x64 : S1x32x64.Broadcasts S64x32x64
  inb_S1x32x1_S1x32x1_0_0_0 : ∀ a, (![0, 0, 0] : Fin 3 → Nat) a + S1x32x1.size a ≤ S1x32x1.size a
  h_S1x32x1 : 0 < S1x32x1.numel
  shapeCasts_S1x32x1_S1x32x1 : S1x32x1.ShapeCasts S1x32x1
  broadcasts_S1x32x1_S64x32x512 : S1x32x1.Broadcasts S64x32x512
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  shapeCasts_S1x1x32_S1x1x32 : S1x1x32.ShapeCasts S1x1x32
  broadcasts_S1x1x32_S64x1x32 : S1x1x32.Broadcasts S64x1x32
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  broadcasts_S1x1x1_S64x1x512 : S1x1x1.Broadcasts S64x1x512
  shapeCasts_S64x1x512_S64x512 : S64x1x512.ShapeCasts S64x512
  reduces_S64x512_S64 : S64x512.Reduces [1] S64
  shapeCasts_S64_S64x1 : S64.ShapeCasts S64x1
  broadcasts_S64x1_S64x512 : S64x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  dot_S64x64x128_S64x128x512_S64x64x512_2_1_1_2_0_0_wf : DotDims.WF S64x64x128 S64x128x512 S64x64x512 [2] [1] [1] [2] [0] [0]
  dot_S64x32x64_S64x64x512_S64x32x512_2_1_1_2_0_0_wf : DotDims.WF S64x32x64 S64x64x512 S64x32x512 [2] [1] [1] [2] [0] [0]
  dot_S64x1x32_S64x32x512_S64x1x512_2_1_1_2_0_0_wf : DotDims.WF S64x1x32 S64x32x512 S64x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x512x128.size a
  hwx0_0 : ∀ i : grid0.Coords, EltTy.bits .f32 = 32 ∨ (Rect.block (s := S4x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x512x128.size a
  hwx0_1 : ∀ i : grid0.Coords, EltTy.bits .f32 = 32 ∨ (Rect.block (s := S4x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S1x64x1.size a
  hwx0_3 : ∀ i : grid0.Coords, EltTy.bits .f32 = 32 ∨ (Rect.block (s := S1x64x1) S1x64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .bf16 = 32 ∨ (Rect.block (s := S32x64) S32x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32x1.size a ≤ S1x32x1.size a
  hwx0_5 : ∀ i : grid0.Coords, EltTy.bits .f32 = 32 ∨ (Rect.block (s := S1x32x1) S1x32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .bf16 = 32 ∨ (Rect.block (s := S1x32) S1x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S1x1x1.size a
  hwx0_7 : ∀ i : grid0.Coords, EltTy.bits .f32 = 32 ∨ (Rect.block (s := S1x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x512.size a ≤ S4x512x512.size a
  hwx0_8 : ∀ i : grid0.Coords, EltTy.bits .f32 = 32 ∨ (Rect.block (s := S4x512x512) S1x64x512.size (cc0_transform_8 i) (hinb0_8 i)).WholeWords (EltTy.packing .f32)

variable [Facts₀]

def dot_S64x64x128_S64x128x512_S64x64x512_2_1_1_2_0_0 : DotDims S64x64x128 S64x128x512 S64x64x512 where
  lhsContracting := [2]
  rhsContracting := [1]
  lhsNonContracting := [1]
  rhsNonContracting := [2]
  lhsBatch := [0]
  rhsBatch := [0]
  wf := dot_S64x64x128_S64x128x512_S64x64x512_2_1_1_2_0_0_wf
def dot_S64x32x64_S64x64x512_S64x32x512_2_1_1_2_0_0 : DotDims S64x32x64 S64x64x512 S64x32x512 where
  lhsContracting := [2]
  rhsContracting := [1]
  lhsNonContracting := [1]
  rhsNonContracting := [2]
  lhsBatch := [0]
  rhsBatch := [0]
  wf := dot_S64x32x64_S64x64x512_S64x32x512_2_1_1_2_0_0_wf
def dot_S64x1x32_S64x32x512_S64x1x512_2_1_1_2_0_0 : DotDims S64x1x32 S64x32x512 S64x1x512 where
  lhsContracting := [2]
  rhsContracting := [1]
  lhsNonContracting := [1]
  rhsNonContracting := [2]
  lhsBatch := [0]
  rhsBatch := [0]
  wf := dot_S64x1x32_S64x32x512_S64x1x512_2_1_1_2_0_0_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S4x512x512x64 : Shape := ⟨4, ![4, 512, 512, 64]⟩
abbrev S1x1x1x64 : Shape := ⟨4, ![1, 1, 1, 64]⟩
abbrev S_ : Shape := ⟨0, ![]⟩
abbrev S4x512x512x32 : Shape := ⟨4, ![4, 512, 512, 32]⟩
abbrev S1x1x1x32 : Shape := ⟨4, ![1, 1, 1, 32]⟩
abbrev S4x512x512x1 : Shape := ⟨4, ![4, 512, 512, 1]⟩
abbrev S1x1x1x1 : Shape := ⟨4, ![1, 1, 1, 1]⟩
abbrev S4x512x512 : Shape := ⟨3, ![4, 512, 512]⟩
abbrev S4x512 : Shape := ⟨2, ![4, 512]⟩
abbrev S4x512x1 : Shape := ⟨3, ![4, 512, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S4x512x1x128, .f32⟩
  | .hbm, ⟨8, _⟩ => ⟨S4x1x512x128, .f32⟩
  | .hbm, ⟨9, _⟩ => ⟨S4x512x512x128, .f32⟩
  | .hbm, ⟨10, _⟩ => ⟨S4x512x512x128, .f32⟩
  | .hbm, ⟨11, _⟩ => ⟨S4x512x512x128, .f32⟩
  | .hbm, ⟨12, _⟩ => ⟨S4x512x512x128, .f32⟩
  | .hbm, ⟨13, _⟩ => ⟨S4x512x512x64, .f32⟩
  | .hbm, ⟨14, _⟩ => ⟨S1x1x1x64, .f32⟩
  | .hbm, ⟨15, _⟩ => ⟨S4x512x512x64, .f32⟩
  | .hbm, ⟨16, _⟩ => ⟨S4x512x512x64, .f32⟩
  | .hbm, ⟨17, _⟩ => ⟨S_, .f32⟩
  | .hbm, ⟨18, _⟩ => ⟨S4x512x512x64, .f32⟩
  | .hbm, ⟨19, _⟩ => ⟨S4x512x512x64, .i1⟩
  | .hbm, ⟨20, _⟩ => ⟨S_, .f32⟩
  | .hbm, ⟨21, _⟩ => ⟨S4x512x512x64, .f32⟩
  | .hbm, ⟨22, _⟩ => ⟨S4x512x512x64, .f32⟩
  | .hbm, ⟨23, _⟩ => ⟨S4x512x512x64, .f32⟩
  | .hbm, ⟨24, _⟩ => ⟨S4x512x512x32, .f32⟩
  | .hbm, ⟨25, _⟩ => ⟨S1x1x1x32, .f32⟩
  | .hbm, ⟨26, _⟩ => ⟨S4x512x512x32, .f32⟩
  | .hbm, ⟨27, _⟩ => ⟨S4x512x512x32, .f32⟩
  | .hbm, ⟨28, _⟩ => ⟨S_, .f32⟩
  | .hbm, ⟨29, _⟩ => ⟨S4x512x512x32, .f32⟩
  | .hbm, ⟨30, _⟩ => ⟨S4x512x512x32, .i1⟩
  | .hbm, ⟨31, _⟩ => ⟨S_, .f32⟩
  | .hbm, ⟨32, _⟩ => ⟨S4x512x512x32, .f32⟩
  | .hbm, ⟨33, _⟩ => ⟨S4x512x512x32, .f32⟩
  | .hbm, ⟨34, _⟩ => ⟨S4x512x512x32, .f32⟩
  | .hbm, ⟨35, _⟩ => ⟨S4x512x512x1, .f32⟩
  | .hbm, ⟨36, _⟩ => ⟨S1x1x1x1, .f32⟩
  | .hbm, ⟨37, _⟩ => ⟨S4x512x512x1, .f32⟩
  | .hbm, ⟨38, _⟩ => ⟨S4x512x512x1, .f32⟩
  | .hbm, ⟨39, _⟩ => ⟨S4x512x512, .f32⟩
  | .hbm, ⟨40, _⟩ => ⟨S_, .f32⟩
  | .hbm, ⟨41, _⟩ => ⟨S4x512, .f32⟩
  | .hbm, ⟨42, _⟩ => ⟨S_, .f32⟩
  | .hbm, ⟨43, _⟩ => ⟨S4x512, .f32⟩
  | .hbm, ⟨44, _⟩ => ⟨S4x512, .f32⟩
  | .hbm, ⟨45, _⟩ => ⟨S4x512x1, .f32⟩
  | .hbm, ⟨46, _⟩ => ⟨S4x512x512, .f32⟩
  | .hbm, ⟨47, _⟩ => ⟨S4x512x512, .f32⟩
  | .hbm, ⟨48, _⟩ => ⟨S4x512x512, .f32⟩
  | .hbm, ⟨49, _⟩ => ⟨S_, .f32⟩
  | .hbm, ⟨50, _⟩ => ⟨S4x512, .f32⟩
  | .hbm, ⟨51, _⟩ => ⟨S4x512x1, .f32⟩
  | .hbm, ⟨52, _⟩ => ⟨S4x512x512, .f32⟩
  | .hbm, ⟨53, _⟩ => ⟨S4x512x512, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  bcast_S64_S1x1x1x64_3 : S64.BroadcastsInDim S1x1x1x64 (![3] : Fin 1 → Fin S1x1x1x64.rank)
  bcast_S1x1x1x64_S4x512x512x64_0_1_2_3 : S1x1x1x64.BroadcastsInDim S4x512x512x64 (![0, 1, 2, 3] : Fin 4 → Fin S4x512x512x64.rank)
  bcast_S_S4x512x512x64 : S_.BroadcastsInDim S4x512x512x64 (![] : Fin 0 → Fin S4x512x512x64.rank)
  bcast_S32_S1x1x1x32_3 : S32.BroadcastsInDim S1x1x1x32 (![3] : Fin 1 → Fin S1x1x1x32.rank)
  bcast_S1x1x1x32_S4x512x512x32_0_1_2_3 : S1x1x1x32.BroadcastsInDim S4x512x512x32 (![0, 1, 2, 3] : Fin 4 → Fin S4x512x512x32.rank)
  bcast_S_S4x512x512x32 : S_.BroadcastsInDim S4x512x512x32 (![] : Fin 0 → Fin S4x512x512x32.rank)
  bcast_S1_S1x1x1x1_3 : S1.BroadcastsInDim S1x1x1x1 (![3] : Fin 1 → Fin S1x1x1x1.rank)
  bcast_S1x1x1x1_S4x512x512x1_0_1_2_3 : S1x1x1x1.BroadcastsInDim S4x512x512x1 (![0, 1, 2, 3] : Fin 4 → Fin S4x512x512x1.rank)
  shapeCasts_S4x512x512x1_S4x512x512 : S4x512x512x1.ShapeCasts S4x512x512
  reducesTo_S4x512x512_S4x512_d2 : S4x512x512.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  dot_S4x512x512x128_S64x128_S4x512x512x64_3_1_012_0_n_n_wf : DotDims.WF S4x512x512x128 S64x128 S4x512x512x64 [3] [1] [0, 1, 2] [0] [] []
  dot_S4x512x512x64_S32x64_S4x512x512x32_3_1_012_0_n_n_wf : DotDims.WF S4x512x512x64 S32x64 S4x512x512x32 [3] [1] [0, 1, 2] [0] [] []
  dot_S4x512x512x32_S1x32_S4x512x512x1_3_1_012_0_n_n_wf : DotDims.WF S4x512x512x32 S1x32 S4x512x512x1 [3] [1] [0, 1, 2] [0] [] []

variable [Facts₀]

def dot_S4x512x512x128_S64x128_S4x512x512x64_3_1_012_0_n_n : DotDims S4x512x512x128 S64x128 S4x512x512x64 where
  lhsContracting := [3]
  rhsContracting := [1]
  lhsNonContracting := [0, 1, 2]
  rhsNonContracting := [0]
  lhsBatch := []
  rhsBatch := []
  wf := dot_S4x512x512x128_S64x128_S4x512x512x64_3_1_012_0_n_n_wf
def dot_S4x512x512x64_S32x64_S4x512x512x32_3_1_012_0_n_n : DotDims S4x512x512x64 S32x64 S4x512x512x32 where
  lhsContracting := [3]
  rhsContracting := [1]
  lhsNonContracting := [0, 1, 2]
  rhsNonContracting := [0]
  lhsBatch := []
  rhsBatch := []
  wf := dot_S4x512x512x64_S32x64_S4x512x512x32_3_1_012_0_n_n_wf
def dot_S4x512x512x32_S1x32_S4x512x512x1_3_1_012_0_n_n : DotDims S4x512x512x32 S1x32 S4x512x512x1 where
  lhsContracting := [3]
  rhsContracting := [1]
  lhsNonContracting := [0, 1, 2]
  rhsNonContracting := [0]
  lhsBatch := []
  rhsBatch := []
  wf := dot_S4x512x512x32_S1x32_S4x512x512x1_3_1_012_0_n_n_wf

class Facts : Prop extends Facts₀ where

variable [Facts]
-- ==== Proof.FrKernelShared.lean ====
/-
  What every point of the grid shares: the arrays as the region finds them after the six host
  operations that cast the three weight matrices and reshape the three biases; each window's block
  at a point; that an input window's staging buffer holds its block at every point, fetched there or
  not; the one branch of the body (the key matrix is transposed into the scratch exactly at the
  first tile of a batch: the points divisible by 8); the staging memrefs a point is called with.
-/
import proofs.«167882_j1657857376688_2_alg».proof.Proof.Gen.Kernel.Launch
import proofs.«167882_j1657857376688_2_alg».proof.Proof.Gen.Kernel.Skeleton
import proofs.«167882_j1657857376688_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: after the host operations before it. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body transposes the key matrix into the scratch when the second grid coordinate is zero. -/
abbrev cond0 (i : grid0.Coords) : Prop := (Scalar.cmpi .ne (Scalar.extui (Scalar.cmpi .eq (BitVec.ofNat 32 (i 1).val) 0#32)) 0#32) = 1#1
/-- That is at the points divisible by 8: the first tile of each batch. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

abbrev ms0 (t : Fin cfg0.N) : Memref sig .tc .vmem S1x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x64 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64x512 .f32 := win0_8.stage (cfg0.slots t 8)
abbrev hs8 (t : Fin cfg0.N) : (ms8 t).IsWhole := hstage0_8 ((cfg0.slots t 8).cast nbuf0_8)
/-- The scratch that keeps the transposed key matrix of the current batch. -/
abbrev scM : Memref sig .tc .vmem S128x512 .f32 := Memref.whole cc0_scratch0
/-- The scratch as a view: what it holds is stated through it. -/
abbrev VS : View sig .tc .vmem S128x512 .f32 := (scM : Memref sig .tc .vmem S128x512 .f32).view
/-- One staging buffer of the output window, through which its contents are stated. -/
abbrev VO : View sig .tc .vmem S1x64x512 .f32 := (Memref.whole cc0_stg8_0 : Memref sig .tc .vmem S1x64x512 .f32).view

/-- The region's own invariant: the scratch owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.FrKernelRunA.lean ====
/-
  The body run once at a first tile of a batch (the branch taken): on whole staging memrefs, the eight inputs at given contents, the body
  runs to its end, hands every input back as it was, and leaves the output buffer (and the scratch,
  where it stores into it) overwritten by the pieces its stores wrote.
-/
import proofs.«167882_j1657857376688_2_alg».proof.Proof.FrKernelShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first tile: the key block is transposed into the scratch, whatever the scratch held, and the output block is
    stored from the inputs and that transpose. The pieces are found by running the body. -/
noncomputable def kernelRunA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i)
    (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) :
    Σ' (L8 : List (View.Piece (Elt F) S1x64x512 .f32)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__mlp_softmax_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_softmax_kernel_eq_skeleton]; unfold cc0__mlp_softmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.Fr

end
-- ==== Proof.FrKernelRunB.lean ====
/-
  The body run once at a later tile of a batch (the branch not taken): on whole staging memrefs, the eight inputs at given contents, the body
  runs to its end, hands every input back as it was, and leaves the output buffer (and the scratch,
  where it stores into it) overwritten by the pieces its stores wrote.
-/
import proofs.«167882_j1657857376688_2_alg».proof.Proof.FrKernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later tile: the scratch is only read, at what the tile before left in it, and handed back as it was; the
    output block is stored from the inputs and the scratch. -/
noncomputable def kernelRunB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i)
    (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) :
    { L8 : List (View.Piece (Elt F) S1x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs) -∗ K ⟨⟩))
          ⊢ wp frame (wpE (defs₀ (F := F)) Variants.none c none) E (cc0__mlp_softmax_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_softmax_kernel_eq_skeleton]; unfold cc0__mlp_softmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS

end Cert.Kernel.Fr

end
-- ==== Proof.FrKernelData.lean ====
/-
  What the output buffer and the scratch hold after each point, the proof data of the pipeline, and
  the body's obligation at every point.  After a first tile of a batch the scratch holds the
  transpose of that batch's key block; a later tile leaves it as it found it; at every point the
  output buffer holds the body's result of the point's input blocks and the scratch.
-/
import proofs.«167882_j1657857376688_2_alg».proof.Proof.FrKernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, case by case -/

/-- A first tile's stores into the output buffer tile it. -/
theorem coverA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (y : S1x64x512.Idx) :
    ∃ pc ∈ (kernelRunA c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRunA c i arg2 harg2 arg3 harg3 arg4 harg4 arg5 harg5 arg6 harg6 arg7 harg7 arg8 harg8 arg9 harg9 arg10 harg10 arg11 harg11 hc0 x0 x1 x2 x3 x4 x5 x6 x7).1 S1x64x512.size (by sl_kernel_rfl) y

/-- What a first tile leaves in the output buffer: its pieces read back. -/
def outA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) : Vec F S1x64x512 .f32 :=
  VO.read (Elt F) (VO.writes (Elt F) VO.junk (kernelRunA c i arg2 harg2 arg3 harg3 arg4 harg4 arg5 harg5 arg6 harg6 arg7 harg7 arg8 harg8 arg9 harg9 arg10 harg10 arg11 harg11 hc0 x0 x1 x2 x3 x4 x5 x6 x7).1)

/-- A first tile's store into the scratch covers it. -/
theorem scoverA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (y : S128x512.Idx) :
    ∃ pc ∈ (kernelRunA c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRunA c i arg2 harg2 arg3 harg3 arg4 harg4 arg5 harg5 arg6 harg6 arg7 harg7 arg8 harg8 arg9 harg9 arg10 harg10 arg11 harg11 hc0 x0 x1 x2 x3 x4 x5 x6 x7).2.1 S128x512.size (by sl_kernel_rfl) y

/-- What a first tile leaves in the scratch. -/
def soutA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) : Vec F S128x512 .f32 :=
  VS.read (Elt F) (VS.writes (Elt F) VS.junk (kernelRunA c i arg2 harg2 arg3 harg3 arg4 harg4 arg5 harg5 arg6 harg6 arg7 harg7 arg8 harg8 arg9 harg9 arg10 harg10 arg11 harg11 hc0 x0 x1 x2 x3 x4 x5 x6 x7).2.1)

/-- A later tile's stores into the output buffer tile it. -/
theorem coverB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) (y : S1x64x512.Idx) :
    ∃ pc ∈ (kernelRunB c i arg2 harg2 arg3 harg3 arg4 harg4 arg5 harg5 arg6 harg6 arg7 harg7 arg8 harg8 arg9 harg9 arg10 harg10 arg11 harg11 hc0 x0 x1 x2 x3 x4 x5 x6 x7 xs).1, y ∈ pc.1.set :=
  View.cover_of_tiledL (kernelRunB c i arg2 harg2 arg3 harg3 arg4 harg4 arg5 harg5 arg6 harg6 arg7 harg7 arg8 harg8 arg9 harg9 arg10 harg10 arg11 harg11 hc0 x0 x1 x2 x3 x4 x5 x6 x7 xs).1 S1x64x512.size (by sl_kernel_rfl) y

/-- What a later tile leaves in the output buffer. -/
def outB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) : Vec F S1x64x512 .f32 :=
  VO.read (Elt F) (VO.writes (Elt F) VO.junk (kernelRunB c i arg2 harg2 arg3 harg3 arg4 harg4 arg5 harg5 arg6 harg6 arg7 harg7 arg8 harg8 arg9 harg9 arg10 harg10 arg11 harg11 hc0 x0 x1 x2 x3 x4 x5 x6 x7 xs).1)

/-! ## Point by point -/

/-- What the output buffer and the scratch hold after the body at position `n`: a first tile's results, or a later
    tile's over the scratch the position before left, which it keeps. -/
def outsAt (c : Dev nD) : (n : ℕ) → n < cfg0.N → Vec F S1x64x512 .f32 × Vec F S128x512 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2,
       (outsAt c n (Nat.lt_of_succ_lt hn)).2)

/-- At a first tile. -/
theorem outsAt_A (c : Dev nD) (t : Fin cfg0.N) (h0 : t.val % 8 = 0) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h0) (iblk m c 0 t) (iblk m c 1 t) (iblk m c 2 t) (iblk m c 3 t) (iblk m c 4 t) (iblk m c 5 t) (iblk m c 6 t) (iblk m c 7 t),
      soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- At a later tile, over what the position before left. -/
theorem outsAt_B (c : Dev nD) (t : Fin cfg0.N) (h0 : ¬t.val % 8 = 0) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scoped buffers the pipeline does not stage are the one scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region's invariant before position `n`: at the start the scratch at anything; afterwards at what the position
    before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data on core `c`: the arrays as the region finds them; after the body each input's buffer at its block, the
    output's at `outsAt`; the invariant `PhiS`; nothing owed. The two windows that read the first argument hold one half
    of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

end Cert.Kernel.Fr

end
-- ==== Proof.FrKernelBody.lean ====
/-
  The body's obligation at every point: from the invariant and the nine current staging buffers (each
  input's at its block, the output's at anything) the body runs to the next invariant with every input
  buffer as it was and the output buffer at the point's result.
-/
import proofs.«167882_j1657857376688_2_alg».proof.Proof.FrKernelData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' buffers hold their blocks; the point is a first tile of a batch or not; the case's
    run applies; the scratch is taken from and returned to the invariant at the contents `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hN : t.val < 32 := lt_of_lt_of_eq t.isLt (show cfg0.N = 32 from N_0)
  by_cases h0 : t.val % 8 = 0
  · rw [outsAt_A m c t h0]
    unfold outA soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA c _ _ _ _ _ _ _ _ _ _ _ _ _ _ _ _ _ _ _ _ _ _ _ _ _ _ _ _ _ _)
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexists _; iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA c _ _ _ _ _ _ _ _ _ _ _ _ _ _ _ _ _ _ _ _ _ _ _ _ _ _ _ _ _ _)
  · rw [outsAt_B m c t h0]
    unfold outB; (try dsimp only)
    have hz : t.val ≠ 0 := fun h => h0 (by rw [h])
    rw [PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB c _ _ _ _ _ _ _ _ _ _ _ _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]
  try exact Idealize.SL.BI.Entails.refl _

/-- After any point but the first the invariant gives the scratch back at some contents. -/
theorem Phi_out (c : Dev nD) (t : Fin (cfg0.N + 1)) (ht : t.val ≠ 0) : (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_eq]
  iintro HS
  iexists _; iexact HS

/-- The same after the last point. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 32 := N_0; omega)

end Cert.Kernel.Fr

end
-- ==== Proof.FrKernelLaunch.lean ====
/-
  The launch.  The first argument is read through two windows (a query tile and the whole key block
  of the batch), so the region holds its buffer as two halves, one per window; every other array is
  held whole.  The run: every weakly fair execution terminates, each window's array ends at what the
  write-backs computed (an input array as it was), and every other argument ends unchanged.
-/
import proofs.«167882_j1657857376688_2_alg».proof.Proof.FrKernelBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed once each. -/
theorem arrRefs_eq : Finset.univ.image (Pipeline.arrRef spec0) = [main_arg0, main_v0, main_v3, main_v1, main_v4, main_v2, main_v5, main_v6].toFinset := by decide

/-- The arrays as points-tos of the buffers behind them, each at its window's share. -/
theorem arrays_eq (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the arrays, whole, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v0) ↦{fullShare} V m c main_v0) ∗ (((c.tc : Thread nD τ).loc main_v3) ↦{fullShare} V m c main_v3) ∗ (((c.tc : Thread nD τ).loc main_v1) ↦{fullShare} V m c main_v1) ∗ (((c.tc : Thread nD τ).loc main_v4) ↦{fullShare} V m c main_v4) ∗ (((c.tc : Thread nD τ).loc main_v2) ↦{fullShare} V m c main_v2) ∗ (((c.tc : Thread nD τ).loc main_v5) ↦{fullShare} V m c main_v5) ∗ (((c.tc : Thread nD τ).loc main_v6) ↦{fullShare} V m c main_v6)) := by
  unfold Pipeline.arrBufs
  exact bigSep_eq_bigSepL_of_eq [main_arg0, main_v0, main_v3, main_v1, main_v4, main_v2, main_v5, main_v6] arrRefs_eq (by decide) _

/-- The first argument's buffer, whole, is split in halves between the two windows that read it. -/
theorem hsplit (c : Dev nD) : (Pipeline.arrBufs spec0 c (V m c) : sProp 𝕄) ⊢ (dats m 0 c).arrays ((dats m 0 c).arrAt · 0) := by
  rw [arrays_eq, bigSep_W0]
  rw [arrBufs_eq]
  iintro ⟨Ha0, Hv0, Hv3, Hv1, Hv4, Hv2, Hv5, Hv6⟩
  ihave Hs := (pointsTo_share (PosShare.mem_left_op_right fullShare)).1 $$ Ha0
  icases Hs with ⟨Hl, Hr⟩
  isplitl [Hl]; · iexact Hl
  isplitl [Hr]; · iexact Hr
  isplitl [Hv0]; · iexact Hv0
  isplitl [Hv3]; · iexact Hv3
  isplitl [Hv1]; · iexact Hv1
  isplitl [Hv4]; · iexact Hv4
  isplitl [Hv2]; · iexact Hv2
  isplitl [Hv5]; · iexact Hv5
  iexact Hv6

/-- Every weakly fair execution terminates without a fault; each window's array ends at what the write-backs computed
    from the proof data, every other unscoped buffer as the region found it. -/
theorem run_main : θ_run defs (onTc (τ := τ) (main (F := F))) ⟨m, fun _ => 0, ρ⟩
    (fun r => ∀ c : Dev nD, (∀ w, r.2.mem (((cfg0).spec w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj 0 winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The program runs to its end without a fault and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel.Fr

end
-- ==== Proof.FrKernelIdealShared.lean ====
/-
  What every point of the grid shares: the arrays as the region finds them after the six host
  operations that cast the three weight matrices and reshape the three biases; each window's block
  at a point; that an input window's staging buffer holds its block at every point, fetched there or
  not; the one branch of the body (the key matrix is transposed into the scratch exactly at the
  first tile of a batch: the points divisible by 8); the staging memrefs a point is called with.
-/
import proofs.«167882_j1657857376688_2_alg».proof.Proof.Gen.KernelIdeal.Launch
import proofs.«167882_j1657857376688_2_alg».proof.Proof.Gen.KernelIdeal.Skeleton
import proofs.«167882_j1657857376688_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: after the host operations before it. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body transposes the key matrix into the scratch when the second grid coordinate is zero. -/
abbrev cond0 (i : grid0.Coords) : Prop := (Scalar.cmpi .ne (Scalar.extui (Scalar.cmpi .eq (BitVec.ofNat 32 (i 1).val) 0#32)) 0#32) = 1#1
/-- That is at the points divisible by 8: the first tile of each batch. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

abbrev ms0 (t : Fin cfg0.N) : Memref sig .tc .vmem S1x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x64 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64x512 .f32 := win0_8.stage (cfg0.slots t 8)
abbrev hs8 (t : Fin cfg0.N) : (ms8 t).IsWhole := hstage0_8 ((cfg0.slots t 8).cast nbuf0_8)
/-- The scratch that keeps the transposed key matrix of the current batch. -/
abbrev scM : Memref sig .tc .vmem S128x512 .f32 := Memref.whole cc0_scratch0
/-- The scratch as a view: what it holds is stated through it. -/
abbrev VS : View sig .tc .vmem S128x512 .f32 := (scM : Memref sig .tc .vmem S128x512 .f32).view
/-- One staging buffer of the output window, through which its contents are stated. -/
abbrev VO : View sig .tc .vmem S1x64x512 .f32 := (Memref.whole cc0_stg8_0 : Memref sig .tc .vmem S1x64x512 .f32).view

/-- The region's own invariant: the scratch owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.FrKernelIdealRunA.lean ====
/-
  The body run once at a first tile of a batch (the branch taken): on whole staging memrefs, the eight inputs at given contents, the body
  runs to its end, hands every input back as it was, and leaves the output buffer (and the scratch,
  where it stores into it) overwritten by the pieces its stores wrote.
-/
import proofs.«167882_j1657857376688_2_alg».proof.Proof.FrKernelIdealShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first tile: the key block is transposed into the scratch, whatever the scratch held, and the output block is
    stored from the inputs and that transpose. The pieces are found by running the body. -/
noncomputable def kernelRunA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i)
    (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) :
    Σ' (L8 : List (View.Piece (Elt F) S1x64x512 .f32)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__mlp_softmax_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_softmax_kernel_eq_skeleton]; unfold cc0__mlp_softmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.Fr

end
-- ==== Proof.FrKernelIdealRunB.lean ====
/-
  The body run once at a later tile of a batch (the branch not taken): on whole staging memrefs, the eight inputs at given contents, the body
  runs to its end, hands every input back as it was, and leaves the output buffer (and the scratch,
  where it stores into it) overwritten by the pieces its stores wrote.
-/
import proofs.«167882_j1657857376688_2_alg».proof.Proof.FrKernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later tile: the scratch is only read, at what the tile before left in it, and handed back as it was; the
    output block is stored from the inputs and the scratch. -/
noncomputable def kernelRunB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i)
    (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) :
    { L8 : List (View.Piece (Elt F) S1x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs) -∗ K ⟨⟩))
          ⊢ wp frame (wpE (defs₀ (F := F)) Variants.none c none) E (cc0__mlp_softmax_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_softmax_kernel_eq_skeleton]; unfold cc0__mlp_softmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS

end Cert.KernelIdeal.Fr

end
-- ==== Proof.FrKernelIdealData.lean ====
/-
  What the output buffer and the scratch hold after each point, the proof data of the pipeline, and
  the body's obligation at every point.  After a first tile of a batch the scratch holds the
  transpose of that batch's key block; a later tile leaves it as it found it; at every point the
  output buffer holds the body's result of the point's input blocks and the scratch.
-/
import proofs.«167882_j1657857376688_2_alg».proof.Proof.FrKernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, case by case -/

/-- A first tile's stores into the output buffer tile it. -/
theorem coverA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (y : S1x64x512.Idx) :
    ∃ pc ∈ (kernelRunA c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRunA c i arg2 harg2 arg3 harg3 arg4 harg4 arg5 harg5 arg6 harg6 arg7 harg7 arg8 harg8 arg9 harg9 arg10 harg10 arg11 harg11 hc0 x0 x1 x2 x3 x4 x5 x6 x7).1 S1x64x512.size (by sl_kernel_rfl) y

/-- What a first tile leaves in the output buffer: its pieces read back. -/
def outA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) : Vec F S1x64x512 .f32 :=
  VO.read (Elt F) (VO.writes (Elt F) VO.junk (kernelRunA c i arg2 harg2 arg3 harg3 arg4 harg4 arg5 harg5 arg6 harg6 arg7 harg7 arg8 harg8 arg9 harg9 arg10 harg10 arg11 harg11 hc0 x0 x1 x2 x3 x4 x5 x6 x7).1)

/-- A first tile's store into the scratch covers it. -/
theorem scoverA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (y : S128x512.Idx) :
    ∃ pc ∈ (kernelRunA c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRunA c i arg2 harg2 arg3 harg3 arg4 harg4 arg5 harg5 arg6 harg6 arg7 harg7 arg8 harg8 arg9 harg9 arg10 harg10 arg11 harg11 hc0 x0 x1 x2 x3 x4 x5 x6 x7).2.1 S128x512.size (by sl_kernel_rfl) y

/-- What a first tile leaves in the scratch. -/
def soutA (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) : Vec F S128x512 .f32 :=
  VS.read (Elt F) (VS.writes (Elt F) VS.junk (kernelRunA c i arg2 harg2 arg3 harg3 arg4 harg4 arg5 harg5 arg6 harg6 arg7 harg7 arg8 harg8 arg9 harg9 arg10 harg10 arg11 harg11 hc0 x0 x1 x2 x3 x4 x5 x6 x7).2.1)

/-- A later tile's stores into the output buffer tile it. -/
theorem coverB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) (y : S1x64x512.Idx) :
    ∃ pc ∈ (kernelRunB c i arg2 harg2 arg3 harg3 arg4 harg4 arg5 harg5 arg6 harg6 arg7 harg7 arg8 harg8 arg9 harg9 arg10 harg10 arg11 harg11 hc0 x0 x1 x2 x3 x4 x5 x6 x7 xs).1, y ∈ pc.1.set :=
  View.cover_of_tiledL (kernelRunB c i arg2 harg2 arg3 harg3 arg4 harg4 arg5 harg5 arg6 harg6 arg7 harg7 arg8 harg8 arg9 harg9 arg10 harg10 arg11 harg11 hc0 x0 x1 x2 x3 x4 x5 x6 x7 xs).1 S1x64x512.size (by sl_kernel_rfl) y

/-- What a later tile leaves in the output buffer. -/
def outB (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) : Vec F S1x64x512 .f32 :=
  VO.read (Elt F) (VO.writes (Elt F) VO.junk (kernelRunB c i arg2 harg2 arg3 harg3 arg4 harg4 arg5 harg5 arg6 harg6 arg7 harg7 arg8 harg8 arg9 harg9 arg10 harg10 arg11 harg11 hc0 x0 x1 x2 x3 x4 x5 x6 x7 xs).1)

/-! ## Point by point -/

/-- What the output buffer and the scratch hold after the body at position `n`: a first tile's results, or a later
    tile's over the scratch the position before left, which it keeps. -/
def outsAt (c : Dev nD) : (n : ℕ) → n < cfg0.N → Vec F S1x64x512 .f32 × Vec F S128x512 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2,
       (outsAt c n (Nat.lt_of_succ_lt hn)).2)

/-- At a first tile. -/
theorem outsAt_A (c : Dev nD) (t : Fin cfg0.N) (h0 : t.val % 8 = 0) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h0) (iblk m c 0 t) (iblk m c 1 t) (iblk m c 2 t) (iblk m c 3 t) (iblk m c 4 t) (iblk m c 5 t) (iblk m c 6 t) (iblk m c 7 t),
      soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- At a later tile, over what the position before left. -/
theorem outsAt_B (c : Dev nD) (t : Fin cfg0.N) (h0 : ¬t.val % 8 = 0) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scoped buffers the pipeline does not stage are the one scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region's invariant before position `n`: at the start the scratch at anything; afterwards at what the position
    before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data on core `c`: the arrays as the region finds them; after the body each input's buffer at its block, the
    output's at `outsAt`; the invariant `PhiS`; nothing owed. The two windows that read the first argument hold one half
    of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

end Cert.KernelIdeal.Fr

end
-- ==== Proof.FrKernelIdealBody.lean ====
/-
  The body's obligation at every point: from the invariant and the nine current staging buffers (each
  input's at its block, the output's at anything) the body runs to the next invariant with every input
  buffer as it was and the output buffer at the point's result.
-/
import proofs.«167882_j1657857376688_2_alg».proof.Proof.FrKernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' buffers hold their blocks; the point is a first tile of a batch or not; the case's
    run applies; the scratch is taken from and returned to the invariant at the contents `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hN : t.val < 32 := lt_of_lt_of_eq t.isLt (show cfg0.N = 32 from N_0)
  by_cases h0 : t.val % 8 = 0
  · rw [outsAt_A m c t h0]
    unfold outA soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA c _ _ _ _ _ _ _ _ _ _ _ _ _ _ _ _ _ _ _ _ _ _ _ _ _ _ _ _ _ _)
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexists _; iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA c _ _ _ _ _ _ _ _ _ _ _ _ _ _ _ _ _ _ _ _ _ _ _ _ _ _ _ _ _ _)
  · rw [outsAt_B m c t h0]
    unfold outB; (try dsimp only)
    have hz : t.val ≠ 0 := fun h => h0 (by rw [h])
    rw [PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB c _ _ _ _ _ _ _ _ _ _ _ _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]
  try exact Idealize.SL.BI.Entails.refl _

/-- After any point but the first the invariant gives the scratch back at some contents. -/
theorem Phi_out (c : Dev nD) (t : Fin (cfg0.N + 1)) (ht : t.val ≠ 0) : (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_eq]
  iintro HS
  iexists _; iexact HS

/-- The same after the last point. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 32 := N_0; omega)

end Cert.KernelIdeal.Fr

end
-- ==== Proof.FrKernelIdealLaunch.lean ====
/-
  The launch.  The first argument is read through two windows (a query tile and the whole key block
  of the batch), so the region holds its buffer as two halves, one per window; every other array is
  held whole.  The run: every weakly fair execution terminates, each window's array ends at what the
  write-backs computed (an input array as it was), and every other argument ends unchanged.
-/
import proofs.«167882_j1657857376688_2_alg».proof.Proof.FrKernelIdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed once each. -/
theorem arrRefs_eq : Finset.univ.image (Pipeline.arrRef spec0) = [main_arg0, main_v0, main_v3, main_v1, main_v4, main_v2, main_v5, main_v6].toFinset := by decide

/-- The arrays as points-tos of the buffers behind them, each at its window's share. -/
theorem arrays_eq (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the arrays, whole, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v0) ↦{fullShare} V m c main_v0) ∗ (((c.tc : Thread nD τ).loc main_v3) ↦{fullShare} V m c main_v3) ∗ (((c.tc : Thread nD τ).loc main_v1) ↦{fullShare} V m c main_v1) ∗ (((c.tc : Thread nD τ).loc main_v4) ↦{fullShare} V m c main_v4) ∗ (((c.tc : Thread nD τ).loc main_v2) ↦{fullShare} V m c main_v2) ∗ (((c.tc : Thread nD τ).loc main_v5) ↦{fullShare} V m c main_v5) ∗ (((c.tc : Thread nD τ).loc main_v6) ↦{fullShare} V m c main_v6)) := by
  unfold Pipeline.arrBufs
  exact bigSep_eq_bigSepL_of_eq [main_arg0, main_v0, main_v3, main_v1, main_v4, main_v2, main_v5, main_v6] arrRefs_eq (by decide) _

/-- The first argument's buffer, whole, is split in halves between the two windows that read it. -/
theorem hsplit (c : Dev nD) : (Pipeline.arrBufs spec0 c (V m c) : sProp 𝕄) ⊢ (dats m 0 c).arrays ((dats m 0 c).arrAt · 0) := by
  rw [arrays_eq, bigSep_W0]
  rw [arrBufs_eq]
  iintro ⟨Ha0, Hv0, Hv3, Hv1, Hv4, Hv2, Hv5, Hv6⟩
  ihave Hs := (pointsTo_share (PosShare.mem_left_op_right fullShare)).1 $$ Ha0
  icases Hs with ⟨Hl, Hr⟩
  isplitl [Hl]; · iexact Hl
  isplitl [Hr]; · iexact Hr
  isplitl [Hv0]; · iexact Hv0
  isplitl [Hv3]; · iexact Hv3
  isplitl [Hv1]; · iexact Hv1
  isplitl [Hv4]; · iexact Hv4
  isplitl [Hv2]; · iexact Hv2
  isplitl [Hv5]; · iexact Hv5
  iexact Hv6

/-- Every weakly fair execution terminates without a fault; each window's array ends at what the write-backs computed
    from the proof data, every other unscoped buffer as the region found it. -/
theorem run_main : θ_run defs (onTc (τ := τ) (main (F := F))) ⟨m, fun _ => 0, ρ⟩
    (fun r => ∀ c : Dev nD, (∀ w, r.2.mem (((cfg0).spec w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj 0 winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The program runs to its end without a fault and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Fr

end
-- ==== Proof.FrKernelIdealPieces.lean ====
/-
  What the body leaves, as values.  At a first tile of a batch the scratch is left holding the transpose of the key
  block, and the output buffer the third layer and row softmax of the first two layers of the query block against that
  transpose (the body reads back what it has just stored into the scratch).  At a later tile the output buffer holds the
  same function of the query block and of whatever the scratch held.  Every store of the body is one store of a whole
  buffer, so each buffer's pieces are one piece, whose payload is read off directly.
-/
import proofs.«167882_j1657857376688_2_alg».proof.Proof.FrKernelIdealData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Zero offsets of a matrix, however they are spelt. -/
theorem hz2 : (![0, 0] : Fin 2 → Nat) = fun _ => 0 := funext fun a => by fin_cases a <;> rfl
/-- Zero offsets of a rank-3 block, however they are spelt. -/
theorem hz3 : (![0, 0, 0] : Fin 3 → Nat) = fun _ => 0 := funext fun a => by fin_cases a <;> rfl

/-- A first tile leaves the transposed key block in the scratch. -/
theorem soutA_eq (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) :
    soutA c i arg2 harg2 arg3 harg3 arg4 harg4 arg5 harg5 arg6 harg6 arg7 harg7 arg8 harg8 arg9 harg9 arg10 harg10 arg11 harg11 hc0 x0 x1 x2 x3 x4 x5 x6 x7 = k0_pay2 x1 := by
  unfold soutA
  rw [View.read_writes_eq_canon _ _ _ (scoverA c i arg2 harg2 arg3 harg3 arg4 harg4 arg5 harg5 arg6 harg6 arg7 harg7 arg8 harg8 arg9 harg9 arg10 harg10 arg11 harg11 hc0 x0 x1 x2 x3 x4 x5 x6 x7)]
  unfold kernelRunA
  dsimp only
  sl_unfold_words
  rw [View.canon_unit_zero (S := S128x512) hz2]
  simp only [View.readAt_eq_ld, harg3.read_unread, View.ld_unit_zero (S := S1x512x128) hz3]

/-- A first tile leaves in the output buffer the body's result of its inputs and of the transpose it has just stored. -/
theorem outA_eq (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) :
    outA c i arg2 harg2 arg3 harg3 arg4 harg4 arg5 harg5 arg6 harg6 arg7 harg7 arg8 harg8 arg9 harg9 arg10 harg10 arg11 harg11 hc0 x0 x1 x2 x3 x4 x5 x6 x7 = k0_pay1 (k0_pay3 x0 (k0_pay2 x1) x2 x3 x4) x5 x6 x7 := by
  unfold outA
  rw [View.read_writes_eq_canon _ _ _ (coverA c i arg2 harg2 arg3 harg3 arg4 harg4 arg5 harg5 arg6 harg6 arg7 harg7 arg8 harg8 arg9 harg9 arg10 harg10 arg11 harg11 hc0 x0 x1 x2 x3 x4 x5 x6 x7)]
  unfold kernelRunA
  dsimp only
  sl_unfold_words
  rw [View.canon_unit_zero (S := S1x64x512) hz3, View.readCov_unit_zero (S := S128x512) _ hz2]
  simp only [View.readAt_eq_ld, harg2.read_unread, harg3.read_unread, harg4.read_unread, harg5.read_unread,
    harg6.read_unread, harg7.read_unread, harg8.read_unread, harg9.read_unread,
    View.ld_unit_zero (S := S1x64x128) hz3, View.ld_unit_zero (S := S1x512x128) hz3, View.ld_unit_zero (S := S64x128) hz2,
    View.ld_unit_zero (S := S1x64x1) hz3, View.ld_unit_zero (S := S32x64) hz2, View.ld_unit_zero (S := S1x32x1) hz3,
    View.ld_unit_zero (S := S1x32) hz2, View.ld_unit_zero (S := S1x1x1) hz3]

/-- A later tile leaves in the output buffer the body's result of its inputs and of what the scratch held. -/
theorem outB_eq (c : Dev nD) (i : grid0.Coords) (arg2 : Memref sig .tc .vmem S1x64x128 .f32) (harg2 : arg2.IsWhole) (arg3 : Memref sig .tc .vmem S1x512x128 .f32) (harg3 : arg3.IsWhole) (arg4 : Memref sig .tc .vmem S64x128 .bf16) (harg4 : arg4.IsWhole) (arg5 : Memref sig .tc .vmem S1x64x1 .f32) (harg5 : arg5.IsWhole) (arg6 : Memref sig .tc .vmem S32x64 .bf16) (harg6 : arg6.IsWhole) (arg7 : Memref sig .tc .vmem S1x32x1 .f32) (harg7 : arg7.IsWhole) (arg8 : Memref sig .tc .vmem S1x32 .bf16) (harg8 : arg8.IsWhole) (arg9 : Memref sig .tc .vmem S1x1x1 .f32) (harg9 : arg9.IsWhole) (arg10 : Memref sig .tc .vmem S1x64x512 .f32) (harg10 : arg10.IsWhole) (arg11 : Memref sig .tc .vmem S128x512 .f32) (harg11 : arg11.IsWhole) (hc0 : ¬cond0 i) (x0 : Vec F S1x64x128 .f32) (x1 : Vec F S1x512x128 .f32) (x2 : Vec F S64x128 .bf16) (x3 : Vec F S1x64x1 .f32) (x4 : Vec F S32x64 .bf16) (x5 : Vec F S1x32x1 .f32) (x6 : Vec F S1x32 .bf16) (x7 : Vec F S1x1x1 .f32) (xs : Vec F S128x512 .f32) :
    outB c i arg2 harg2 arg3 harg3 arg4 harg4 arg5 harg5 arg6 harg6 arg7 harg7 arg8 harg8 arg9 harg9 arg10 harg10 arg11 harg11 hc0 x0 x1 x2 x3 x4 x5 x6 x7 xs = k0_pay1 (k0_pay3 x0 xs x2 x3 x4) x5 x6 x7 := by
  unfold outB
  rw [View.read_writes_eq_canon _ _ _ (coverB c i arg2 harg2 arg3 harg3 arg4 harg4 arg5 harg5 arg6 harg6 arg7 harg7 arg8 harg8 arg9 harg9 arg10 harg10 arg11 harg11 hc0 x0 x1 x2 x3 x4 x5 x6 x7 xs)]
  unfold kernelRunB
  dsimp only
  sl_unfold_words
  rw [View.canon_unit_zero (S := S1x64x512) hz3]
  simp only [View.readAt_eq_ld, harg2.read_unread, harg4.read_unread, harg5.read_unread,
    harg6.read_unread, harg7.read_unread, harg8.read_unread, harg9.read_unread, harg11.read_unread,
    View.ld_unit_zero (S := S1x64x128) hz3, View.ld_unit_zero (S := S128x512) hz2, View.ld_unit_zero (S := S64x128) hz2,
    View.ld_unit_zero (S := S1x64x1) hz3, View.ld_unit_zero (S := S32x64) hz2, View.ld_unit_zero (S := S1x32x1) hz3,
    View.ld_unit_zero (S := S1x32) hz2, View.ld_unit_zero (S := S1x1x1) hz3]

end Cert.KernelIdeal.Fr

end
-- ==== Proof.FrKernelIdealScratch.lean ====
/-
  The scratch and the output buffer after every point, in closed form.  The scratch is written only at the first tile
  of a batch (the points divisible by 8) and kept by the seven tiles after it, so after point t it holds the transpose
  of the key block fetched at point t - t % 8, the first tile of t's batch; and the output buffer holds the body's
  result of point t's input blocks and of that transpose.  By induction on the point.
-/
import proofs.«167882_j1657857376688_2_alg».proof.Proof.FrKernelIdealPieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transposed key block of a point depends on the point only. -/
theorem pay2_congr (c : Dev nD) (t t' : Fin cfg0.N) (h : t = t') :
    k0_pay2 (F := F) (iblk m c 1 t) = k0_pay2 (F := F) (iblk m c 1 t') := by
  subst h; rfl

/-- What the scratch holds after a position depends on the position only. -/
theorem outsAt_snd_congr (c : Dev nD) (a b : ℕ) (ha : a < cfg0.N) (hb : b < cfg0.N) (h : a = b) :
    (outsAt m c a ha).2 = (outsAt m c b hb).2 := by
  subst h; rfl

/-- After position `n` the scratch holds the transpose of the key block of position `n - n % 8`. -/
theorem scratch_eq_nat (c : Dev nD) : ∀ (n : ℕ) (hn : n < cfg0.N),
    (outsAt m c n hn).2 = k0_pay2 (F := F) (iblk m c 1 ⟨n - n % 8, Nat.lt_of_le_of_lt (Nat.sub_le _ _) hn⟩) := by
  intro n
  induction n with
  | zero =>
    intro hn
    rw [outsAt_A m c ⟨0, hn⟩ rfl]
    dsimp only
    refine (soutA_eq (F := F) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)).trans ?_
    exact pay2_congr m c _ _ (Fin.ext rfl)
  | succ n ih =>
    intro hn
    by_cases h0 : (n + 1) % 8 = 0
    · rw [outsAt_A m c ⟨n + 1, hn⟩ h0]
      dsimp only
      refine (soutA_eq (F := F) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)).trans ?_
      exact pay2_congr m c _ _ (Fin.ext (by show n + 1 = n + 1 - (n + 1) % 8; omega))
    · rw [outsAt_B m c ⟨n + 1, hn⟩ h0]
      dsimp only
      refine (outsAt_snd_congr m c (n + 1 - 1) n _ (Nat.lt_of_succ_lt hn) (Nat.add_sub_cancel n 1)).trans ?_
      refine (ih (Nat.lt_of_succ_lt hn)).trans ?_
      exact pay2_congr m c _ _ (Fin.ext (by show n - n % 8 = n + 1 - (n + 1) % 8; omega))

/-- The scratch after point `t`: the transpose of the key block fetched at the first tile of `t`'s batch. -/
theorem scratch_eq (c : Dev nD) (t : Fin cfg0.N) :
    (outsAt m c t.val t.isLt).2 = k0_pay2 (F := F) (iblk m c 1 ⟨t.val - t.val % 8, by have := t.isLt; omega⟩) :=
  scratch_eq_nat m c t.val t.isLt

/-- The output buffer after point `t`: the body's result of the point's blocks and that transpose. -/
theorem out_eq (c : Dev nD) (t : Fin cfg0.N) :
    (outsAt m c t.val t.isLt).1 = k0_pay1 (F := F) (k0_pay3 (iblk m c 0 t)
        (k0_pay2 (iblk m c 1 ⟨t.val - t.val % 8, by have := t.isLt; omega⟩))
        (iblk m c 2 t) (iblk m c 3 t) (iblk m c 4 t)) (iblk m c 5 t) (iblk m c 6 t) (iblk m c 7 t) := by
  by_cases h0 : t.val % 8 = 0
  · rw [outsAt_A m c t h0]
    dsimp only
    refine (outA_eq (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h0) (iblk m c 0 t) (iblk m c 1 t) (iblk m c 2 t) (iblk m c 3 t) (iblk m c 4 t) (iblk m c 5 t) (iblk m c 6 t) (iblk m c 7 t)).trans ?_
    exact congrArg (fun s : Vec F S128x512 .f32 => k0_pay1 (k0_pay3 (iblk m c 0 t) s (iblk m c 2 t) (iblk m c 3 t) (iblk m c 4 t)) (iblk m c 5 t) (iblk m c 6 t) (iblk m c 7 t))
      (pay2_congr m c _ _ (Fin.ext (by show t.val = t.val - t.val % 8; omega)))
  · rw [outsAt_B m c t h0]
    dsimp only
    refine (outB_eq (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t)
      (outsAt m c (t.val - 1) (Nat.lt_of_le_of_lt (Nat.sub_le _ _) t.isLt)).2).trans ?_
    exact congrArg (fun s : Vec F S128x512 .f32 => k0_pay1 (k0_pay3 (iblk m c 0 t) s (iblk m c 2 t) (iblk m c 3 t) (iblk m c 4 t)) (iblk m c 5 t) (iblk m c 6 t) (iblk m c 7 t))
      ((scratch_eq_nat m c (t.val - 1) (Nat.lt_of_le_of_lt (Nat.sub_le _ _) t.isLt)).trans
        (pay2_congr m c _ _ (Fin.ext (by show t.val - 1 - (t.val - 1) % 8 = t.val - t.val % 8; omega))))

end Cert.KernelIdeal.Fr

end
-- ==== Proof.FrKernelIdealBlocks.lean ====
/-
  Each input window's block at a grid point, read at an index, as the launched arrays.

  The grid is 4 batches by 8 row tiles; point t works on batch t / 8 and tile t % 8.  The query block is
  rows 64 * (t % 8) ... 64 * (t % 8) + 63 of batch t / 8, the key block is all 512 rows of that batch,
  and the six parameter windows are whole arrays.  The three weight matrices reach the region through a
  format change, which is the identity on extended reals; the three biases through a reshape
  [n] -> [1, n, 1], which keeps the row-major position, so entry (0, o, 0) is entry o.
-/
import proofs.«167882_j1657857376688_2_alg».proof.Proof.FrKernelIdealShared
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The index maps over the grid -/

/-- The printed index maps, decided once over the 32 grid points: the query and output windows sit at block
    (t / 8, t % 8, 0), the key window at block (t / 8, 0, 0), every parameter window at block 0. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_8.index t (0 : Fin 3) = t.val / 8 ∧ win0_8.index t (1 : Fin 3) = t.val % 8 ∧ win0_8.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0 :=
  (by decide +kernel : ∀ t : Fin grid0.N, _)

/-- The batch a grid point works on: t / 8. -/
abbrev batchOf (t : Fin cfg0.N) : Fin 4 := ⟨t.val / 8, by have := t.isLt; have hN : cfg0.N = 32 := N_0; omega⟩
/-- The row of the array that row r of a grid point's query block is: 64 * (t % 8) + r. -/
abbrev rowOf (t : Fin cfg0.N) (r : Fin 64) : Fin 512 :=
  ⟨64 * (t.val % 8) + r.val, by have := r.isLt; omega⟩

/-! ## The arrays the host operations wrote -/

/-- The first weight matrix as the region finds it: the launched one, its format changed. -/
theorem castW1 (c : Dev nD) :
    (V m c main_v0 : S64x128.Idx → EReal)
      = (truncf .bf16 (m ((c : Thread nD τ).loc main_arg1) : FVec Ideal S64x128 .f32) bitsLt_bf16_f32 : FVec Ideal S64x128 .bf16) := by
  dsimp only [V]
  simp only [hostOps0, List.flatten_cons, List.flatten_nil, List.append_nil]
  after_results

/-- The second weight matrix as the region finds it. -/
theorem castW2 (c : Dev nD) :
    (V m c main_v1 : S32x64.Idx → EReal)
      = (truncf .bf16 (m ((c : Thread nD τ).loc main_arg3) : FVec Ideal S32x64 .f32) bitsLt_bf16_f32 : FVec Ideal S32x64 .bf16) := by
  dsimp only [V]
  simp only [hostOps0, List.flatten_cons, List.flatten_nil, List.append_nil]
  after_results

/-- The third weight matrix as the region finds it. -/
theorem castW3 (c : Dev nD) :
    (V m c main_v2 : S1x32.Idx → EReal)
      = (truncf .bf16 (m ((c : Thread nD τ).loc main_arg5) : FVec Ideal S1x32 .f32) bitsLt_bf16_f32 : FVec Ideal S1x32 .bf16) := by
  dsimp only [V]
  simp only [hostOps0, List.flatten_cons, List.flatten_nil, List.append_nil]
  after_results

/-- The first bias as the region finds it: the launched one, reshaped [64] -> [1, 64, 1]. -/
theorem reshapeB1 (c : Dev nD) :
    (V m c main_v3 : S1x64x1.Idx → EReal)
      = shapeCast S1x64x1 (m ((c : Thread nD τ).loc main_arg2) : S64.Idx → EReal) shapeCasts_S64_S1x64x1 := by
  dsimp only [V]
  simp only [hostOps0, List.flatten_cons, List.flatten_nil, List.append_nil]
  after_results
  rfl

/-- The second bias as the region finds it: reshaped [32] -> [1, 32, 1]. -/
theorem reshapeB2 (c : Dev nD) :
    (V m c main_v4 : S1x32x1.Idx → EReal)
      = shapeCast S1x32x1 (m ((c : Thread nD τ).loc main_arg4) : S32.Idx → EReal) shapeCasts_S32_S1x32x1 := by
  dsimp only [V]
  simp only [hostOps0, List.flatten_cons, List.flatten_nil, List.append_nil]
  after_results
  rfl

/-- The third bias as the region finds it: reshaped [1] -> [1, 1, 1]. -/
theorem reshapeB3 (c : Dev nD) :
    (V m c main_v5 : S1x1x1.Idx → EReal)
      = shapeCast S1x1x1 (m ((c : Thread nD τ).loc main_arg6) : S1.Idx → EReal) shapeCasts_S1_S1x1x1 := by
  dsimp only [V]
  simp only [hostOps0, List.flatten_cons, List.flatten_nil, List.append_nil]
  after_results
  rfl

/-! ## The blocks at an index -/

/-- The query block at (0, r, d) is v[t / 8, 64 * (t % 8) + r, d]. -/
theorem blk0 (c : Dev nD) (t : Fin cfg0.N) (r : Fin 64) (d : Fin 128) :
    (iblk (F := Ideal) m c 0 t : Vec Ideal S1x64x128 .f32) (ix3 (0 : Fin 1) r d)
      = (m ((c : Thread nD τ).loc main_arg0) : S4x512x128.Idx → Elt Ideal .f32) (ix3 (batchOf t) (rowOf t r) d) := by
  obtain ⟨e0, e1, e2, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 64 + 1 * r.val = 64 * (t.val % 8) + r.val; omega
  | ⟨2, _⟩ => show win0_0.index t (2 : Fin 3) * 128 + 1 * d.val = d.val; omega

/-- The key block at (0, j, d) is v[t / 8, j, d]. -/
theorem blk1 (c : Dev nD) (t : Fin cfg0.N) (j : Fin 512) (d : Fin 128) :
    (iblk (F := Ideal) m c 1 t : Vec Ideal S1x512x128 .f32) (ix3 (0 : Fin 1) j d)
      = (m ((c : Thread nD τ).loc main_arg0) : S4x512x128.Idx → Elt Ideal .f32) (ix3 (batchOf t) j d) := by
  obtain ⟨-, -, -, e0, e1, e2, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_1.index t (0 : Fin 3) * 1 + 1 * 0 = t.val / 8; omega
  | ⟨1, _⟩ => show win0_1.index t (1 : Fin 3) * 512 + 1 * j.val = j.val; omega
  | ⟨2, _⟩ => show win0_1.index t (2 : Fin 3) * 128 + 1 * d.val = d.val; omega

/-- The first weight block at (o, d) is W1[o, d]. -/
theorem blk2 (c : Dev nD) (t : Fin cfg0.N) (o : Fin 64) (d : Fin 128) :
    (iblk (F := Ideal) m c 2 t : Vec Ideal S64x128 .bf16) (ix2 o d)
      = (m ((c : Thread nD τ).loc main_arg1) : S64x128.Idx → Elt Ideal .f32) (ix2 o d) := by
  obtain ⟨-, -, -, -, -, -, -, -, -, e0, e1, -⟩ := idx_facts t
  unfold iblk
  rw [View.read_apply]
  show (V m c main_v0 : S64x128.Idx → EReal) _ = m (c.tc.loc main_arg1) _
  rw [castW1]
  show (m (c.tc.loc main_arg1) : S64x128.Idx → EReal) _ = m (c.tc.loc main_arg1) _
  refine congrArg _ (funext fun a => Fin.ext ?_)
  match a with
  | ⟨0, _⟩ => show win0_2.index t (0 : Fin 2) * 64 + 1 * o.val = o.val; omega
  | ⟨1, _⟩ => show win0_2.index t (1 : Fin 2) * 128 + 1 * d.val = d.val; omega

/-- The first bias block at (0, o, 0) is b1[o]. -/
theorem blk3 (c : Dev nD) (t : Fin cfg0.N) (o : Fin 64) :
    (iblk (F := Ideal) m c 3 t : Vec Ideal S1x64x1 .f32) (ix3 (0 : Fin 1) o (0 : Fin 1))
      = (m ((c : Thread nD τ).loc main_arg2) : S64.Idx → Elt Ideal .f32) (ix1 o) := by
  obtain ⟨-, -, -, -, -, -, -, -, -, -, -, e0, e1, e2, -⟩ := idx_facts t
  unfold iblk
  rw [View.read_apply]
  show (V m c main_v3 : S1x64x1.Idx → EReal) _ = m (c.tc.loc main_arg2) _
  rw [reshapeB1]
  refine shapeCast_apply _ _ _ (ix1 o) ?_
  rw [Shape.rowMajor_val_one, Shape.rowMajor_val_three]
  show o.val = ((win0_3.index t (0 : Fin 3) * 1 + 1 * 0) * 64 + (win0_3.index t (1 : Fin 3) * 64 + 1 * o.val)) * 1
    + (win0_3.index t (2 : Fin 3) * 1 + 1 * 0)
  omega

/-- The second weight block at (o, k) is W2[o, k]. -/
theorem blk4 (c : Dev nD) (t : Fin cfg0.N) (o : Fin 32) (k : Fin 64) :
    (iblk (F := Ideal) m c 4 t : Vec Ideal S32x64 .bf16) (ix2 o k)
      = (m ((c : Thread nD τ).loc main_arg3) : S32x64.Idx → Elt Ideal .f32) (ix2 o k) := by
  obtain ⟨-, -, -, -, -, -, -, -, -, -, -, -, -, -, e0, e1, -⟩ := idx_facts t
  unfold iblk
  rw [View.read_apply]
  show (V m c main_v1 : S32x64.Idx → EReal) _ = m (c.tc.loc main_arg3) _
  rw [castW2]
  show (m (c.tc.loc main_arg3) : S32x64.Idx → EReal) _ = m (c.tc.loc main_arg3) _
  refine congrArg _ (funext fun a => Fin.ext ?_)
  match a with
  | ⟨0, _⟩ => show win0_4.index t (0 : Fin 2) * 32 + 1 * o.val = o.val; omega
  | ⟨1, _⟩ => show win0_4.index t (1 : Fin 2) * 64 + 1 * k.val = k.val; omega

/-- The second bias block at (0, o, 0) is b2[o]. -/
theorem blk5 (c : Dev nD) (t : Fin cfg0.N) (o : Fin 32) :
    (iblk (F := Ideal) m c 5 t : Vec Ideal S1x32x1 .f32) (ix3 (0 : Fin 1) o (0 : Fin 1))
      = (m ((c : Thread nD τ).loc main_arg4) : S32.Idx → Elt Ideal .f32) (ix1 o) := by
  obtain ⟨-, -, -, -, -, -, -, -, -, -, -, -, -, -, -, -, e0, e1, e2, -⟩ := idx_facts t
  unfold iblk
  rw [View.read_apply]
  show (V m c main_v4 : S1x32x1.Idx → EReal) _ = m (c.tc.loc main_arg4) _
  rw [reshapeB2]
  refine shapeCast_apply _ _ _ (ix1 o) ?_
  rw [Shape.rowMajor_val_one, Shape.rowMajor_val_three]
  show o.val = ((win0_5.index t (0 : Fin 3) * 1 + 1 * 0) * 32 + (win0_5.index t (1 : Fin 3) * 32 + 1 * o.val)) * 1
    + (win0_5.index t (2 : Fin 3) * 1 + 1 * 0)
  omega

/-- The third weight block at (0, k) is W3[0, k]. -/
theorem blk6 (c : Dev nD) (t : Fin cfg0.N) (k : Fin 32) :
    (iblk (F := Ideal) m c 6 t : Vec Ideal S1x32 .bf16) (ix2 (0 : Fin 1) k)
      = (m ((c : Thread nD τ).loc main_arg5) : S1x32.Idx → Elt Ideal .f32) (ix2 (0 : Fin 1) k) := by
  obtain ⟨-, -, -, -, -, -, -, -, -, -, -, -, -, -, -, -, -, -, -, e0, e1, -⟩ := idx_facts t
  unfold iblk
  rw [View.read_apply]
  show (V m c main_v2 : S1x32.Idx → EReal) _ = m (c.tc.loc main_arg5) _
  rw [castW3]
  show (m (c.tc.loc main_arg5) : S1x32.Idx → EReal) _ = m (c.tc.loc main_arg5) _
  refine congrArg _ (funext fun a => Fin.ext ?_)
  match a with
  | ⟨0, _⟩ => show win0_6.index t (0 : Fin 2) * 1 + 1 * 0 = 0; omega
  | ⟨1, _⟩ => show win0_6.index t (1 : Fin 2) * 32 + 1 * k.val = k.val; omega

/-- The third bias block at (0, 0, 0) is b3[0]. -/
theorem blk7 (c : Dev nD) (t : Fin cfg0.N) :
    (iblk (F := Ideal) m c 7 t : Vec Ideal S1x1x1 .f32) (ix3 (0 : Fin 1) (0 : Fin 1) (0 : Fin 1))
      = (m ((c : Thread nD τ).loc main_arg6) : S1.Idx → Elt Ideal .f32) (ix1 (0 : Fin 1)) := by
  obtain ⟨-, -, -, -, -, -, -, -, -, -, -, -, -, -, -, -, -, -, -, -, -, e0, e1, e2⟩ := idx_facts t
  unfold iblk
  rw [View.read_apply]
  show (V m c main_v5 : S1x1x1.Idx → EReal) _ = m (c.tc.loc main_arg6) _
  rw [reshapeB3]
  refine shapeCast_apply _ _ _ (ix1 (0 : Fin 1)) ?_
  rw [Shape.rowMajor_val_one, Shape.rowMajor_val_three]
  show 0 = ((win0_7.index t (0 : Fin 3) * 1 + 1 * 0) * 1 + (win0_7.index t (1 : Fin 3) * 1 + 1 * 0)) * 1
    + (win0_7.index t (2 : Fin 3) * 1 + 1 * 0)
  omega

end Cert.KernelIdeal.Fr

end
-- ==== Proof.FrKernelIdealCover.lean ====
/-
  The output window's blocks tile the output array: block t is batch t / 8, rows 64 * (t % 8) ... 64 * (t % 8) + 63,
  all 512 keys, so the element (b, row, j) lies in the block of point 8 * b + row / 64, and element (0, r, j) of
  block t sits in the array at (t / 8, 64 * (t % 8) + r, j).
-/
import proofs.«167882_j1657857376688_2_alg».proof.Proof.FrKernelIdealBlocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx

/-- An index of the output array is in point t's block iff each coordinate is in the block's range on its axis. -/
theorem mem_blk8 (t : Fin cfg0.N) (i : S4x512x512.Idx) :
    i ∈ ((cfg0.win 8).blk t).view.set ↔ ∀ a : Fin 3, win0_8.index t a * S1x64x512.size a ≤ (i a).val
      ∧ (i a).val < win0_8.index t a * S1x64x512.size a + S1x64x512.size a := by
  show i ∈ ((View.whole main_v6).slice (win0_8.rect t)).set ↔ _
  rw [View.set_slice_whole, Rect.mem_set_unit]
  exact Iff.rfl

/-- Every element of the output array is in the block of a point that writes back: (b, row, j) in that of 8 * b + row / 64. -/
theorem cover8 (i : S4x512x512.Idx) :
    ∃ t : Fin cfg0.N, (cfg0.win 8).flush t = true ∧ i ∈ ((cfg0.win 8).blk t).view.set := by
  have h0 : (i 0).val < 4 := (i 0).isLt
  have h1 : (i 1).val < 512 := (i 1).isLt
  have h2 : (i 2).val < 512 := (i 2).isLt
  have hN : cfg0.N = 32 := N_0
  refine ⟨⟨8 * (i 0).val + (i 1).val / 64, by omega⟩, flush0_8 _, ?_⟩
  rw [mem_blk8]
  obtain ⟨-, -, -, -, -, -, e0, e1, e2, -⟩ := idx_facts ⟨8 * (i 0).val + (i 1).val / 64, by omega⟩
  intro a
  match a with
  | ⟨0, _⟩ =>
    show win0_8.index ⟨8 * (i 0).val + (i 1).val / 64, _⟩ (0 : Fin 3) * 1 ≤ (i 0).val
      ∧ (i 0).val < win0_8.index ⟨8 * (i 0).val + (i 1).val / 64, _⟩ (0 : Fin 3) * 1 + 1
    rw [e0]; show (8 * (i 0).val + (i 1).val / 64) / 8 * 1 ≤ (i 0).val ∧ (i 0).val < (8 * (i 0).val + (i 1).val / 64) / 8 * 1 + 1
    omega
  | ⟨1, _⟩ =>
    show win0_8.index ⟨8 * (i 0).val + (i 1).val / 64, _⟩ (1 : Fin 3) * 64 ≤ (i 1).val
      ∧ (i 1).val < win0_8.index ⟨8 * (i 0).val + (i 1).val / 64, _⟩ (1 : Fin 3) * 64 + 64
    rw [e1]; show (8 * (i 0).val + (i 1).val / 64) % 8 * 64 ≤ (i 1).val ∧ (i 1).val < (8 * (i 0).val + (i 1).val / 64) % 8 * 64 + 64
    omega
  | ⟨2, _⟩ =>
    show win0_8.index ⟨8 * (i 0).val + (i 1).val / 64, _⟩ (2 : Fin 3) * 512 ≤ (i 2).val
      ∧ (i 2).val < win0_8.index ⟨8 * (i 0).val + (i 1).val / 64, _⟩ (2 : Fin 3) * 512 + 512
    rw [e2]
    omega

/-- Element (0, r, j) of the output block of point t sits in the array at (t / 8, 64 * (t % 8) + r, j). -/
theorem emb8 (t : Fin cfg0.N) (r : Fin 64) (j : Fin 512) :
    ((cfg0.win 8).blk t).view.emb (ix3 (0 : Fin 1) r j : S1x64x512.Idx) = (ix3 (batchOf t) (rowOf t r) j : S4x512x512.Idx) := by
  obtain ⟨-, -, -, -, -, -, e0, e1, e2, -⟩ := idx_facts t
  funext a
  apply Fin.ext
  match a with
  | ⟨0, _⟩ => show win0_8.index t (0 : Fin 3) * 1 + 1 * 0 = t.val / 8; omega
  | ⟨1, _⟩ => show win0_8.index t (1 : Fin 3) * 64 + 1 * r.val = 64 * (t.val % 8) + r.val; omega
  | ⟨2, _⟩ => show win0_8.index t (2 : Fin 3) * 512 + 1 * j.val = j.val; omega

end Cert.KernelIdeal.Fr

end
-- ==== Proof.Spec.lean ====
/-
  The function both programs compute, index by index, on the extended reals.

  For a batch b, a query row i and a key row j, with v : [4, 512, 128]:
    phi d    = |v[b,i,d] - v[b,j,d]|                                  (d < 128)
    h1 o     = leaky (sum_d W1[o,d] * phi d + b1[o])                   (o < 64)
    h2 o     = leaky (sum_k W2[o,k] * h1 k + b2[o])                    (o < 32)
    logit    = sum_k W3[0,k] * h2 k + b3[0]
    G[b,i,j] = exp (logit j - max_j' logit j') / sum_j' exp (logit j' - max_j'' logit j'')
  where leaky x = x for x >= 0 and c * x otherwise, c the single-precision number nearest one tenth,
  the maximum is the fold of max from -infinity over the 512 keys, and the quotient is the extended
  reals' division.  Products inside the three contractions are written weight first.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The slope of the leaky rectifier: the single-precision number nearest 0.1, as an extended real. -/
abbrev slope : EReal := Ideal.ofBits .f32 0x3DCCCCCD#32
/-- Zero as the single-precision zero word denotes it. -/
abbrev zeroW : EReal := Ideal.ofBits .f32 0x00000000#32
/-- Minus infinity as the single-precision word denotes it: where the row maximum starts. -/
abbrev negInfW : EReal := Ideal.ofBits .f32 0xFF800000#32

/-- The leaky rectifier: x where x >= 0, slope * x elsewhere. -/
def leaky (x : EReal) : EReal :=
  Scalar.select (FloatOps.cmpf (F := Ideal) (φ := .f32) .oge x zeroW) x (slope * x)

section
variable (v : (⟨3, ![4, 512, 128]⟩ : Shape).Idx → EReal)
  (W1 : (⟨2, ![64, 128]⟩ : Shape).Idx → EReal) (b1 : (⟨1, ![64]⟩ : Shape).Idx → EReal)
  (W2 : (⟨2, ![32, 64]⟩ : Shape).Idx → EReal) (b2 : (⟨1, ![32]⟩ : Shape).Idx → EReal)
  (W3 : (⟨2, ![1, 32]⟩ : Shape).Idx → EReal) (b3 : (⟨1, ![1]⟩ : Shape).Idx → EReal)

/-- |v[b,i,d] - v[b,j,d]|: the d-th feature of the pair (i, j) of rows of batch b. -/
def phi (b : Fin 4) (i j : Fin 512) (d : Fin 128) : EReal :=
  FloatOps.absf (F := Ideal) (φ := .f32) (v (ix3 b i d) - v (ix3 b j d))

/-- First layer, channel o of 64. -/
def h1 (b : Fin 4) (i j : Fin 512) (o : Fin 64) : EReal :=
  leaky ((∑ d : Fin 128, W1 (ix2 o d) * phi v b i j d) + b1 (ix1 o))

/-- Second layer, channel o of 32. -/
def h2 (b : Fin 4) (i j : Fin 512) (o : Fin 32) : EReal :=
  leaky ((∑ k : Fin 64, W2 (ix2 o k) * h1 v W1 b1 b i j k) + b2 (ix1 o))

/-- The logit of the pair (i, j). -/
def logit (b : Fin 4) (i j : Fin 512) : EReal :=
  (∑ k : Fin 32, W3 (ix2 (0 : Fin 1) k) * h2 v W1 b1 W2 b2 b i j k) + b3 (ix1 (0 : Fin 1))

/-- The largest logit of row i over the keys, folded from minus infinity. -/
def rowMax (b : Fin 4) (i : Fin 512) : EReal :=
  (Finset.univ : Finset (Fin 512)).fold max negInfW (fun j => logit v W1 b1 W2 b2 W3 b3 b i j)

/-- exp (logit - row maximum). -/
def ex (b : Fin 4) (i j : Fin 512) : EReal :=
  Ideal.exp (logit v W1 b1 W2 b2 W3 b3 b i j - rowMax v W1 b1 W2 b2 W3 b3 b i)

/-- The softmax over the keys of the logits of row i of batch b, as one function of the whole arrays. -/
def G : (⟨3, ![4, 512, 512]⟩ : Shape).Idx → EReal := fun y =>
  Ideal.div (ex v W1 b1 W2 b2 W3 b3 (y 0) (y 1) (y 2)) (∑ j : Fin 512, ex v W1 b1 W2 b2 W3 b3 (y 0) (y 1) j)

end

end Cert.Spec

end
-- ==== Proof.PayValue1.lean ====
/-
  Reading tools for the payload of the pairwise-MLP softmax body, none of them about this kernel in particular.
  (1) The reshapes and broadcasts that add, drop or fill a unit axis in the middle or at the end of a shape, read at an
  index written by coordinates.  (2) A batched product [B, M, K] x [B, K, N] -> [B, M, N] into a zero accumulator, read
  at (b, m, n) as the sum over k : Fin K of left (b, m, k) times right (b, k, n).  (3) The maximum and the sum along the
  rows of a matrix, read at a row as a fold of max, respectively a sum, over the columns.  (4) A weight matrix and a bias
  column as the body lays them out for a batched product, read at an index.  (5) The leaky rectifier as the vector
  operations spell it, which is the specification's at every element.  (6) The softmax along the rows of a matrix as the
  body computes it — row maximum from minus infinity, exponential of the difference, row sum, quotient — read at an entry.
-/
import Idealize.ShloMosaic.PureOps.Ideal.Laws
import Idealize.ShloMosaic.Lib.ValueIdx
import Idealize.ShloMosaic.Lib.ValueLayout
import proofs.«167882_j1657857376688_2_alg».proof.Proof.Spec

noncomputable section

namespace Cert.KernelIdeal.PayValue

open Idealize.ShloMosaic Idealize.ShloMosaic.ValueIdx
open scoped BigOperators

variable {α : Type}

/-! ## Unit axes added or dropped by a reshape -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Unit axes filled by a broadcast -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b, 1]` array (one value per middle coordinate) broadcast to `[a, b', c]` with `b' = b` reads, at
`(i, j, k)`, the operand at `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column `[a, 1]` broadcast to `[a, b]` reads, at `(i, k)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

/-! ## A batched product into a zero accumulator -/

/-- The dimension numbers of the batched product `[B, M, K] x [B, K, N] -> [B, M, N]`: batch axis 0 on both sides, the
left operand contracted on its last axis and the right one on its middle axis. -/
abbrev bmmDims (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

section Bmm
variable {B M K N : ℕ} (wf : DotDims.WF ⟨3, ![B, M, K]⟩ ⟨3, ![B, K, N]⟩ ⟨3, ![B, M, N]⟩ [2] [1] [1] [2] [0] [0])

/-- The left operand's index at a result index `j` and a contraction index `q`: batch coordinate `j 0` … -/
theorem bmm_lhs0 (j : (⟨3, ![B, M, N]⟩ : Shape).Idx) (q : (bmmDims B M K N wf).contr.Idx) :
    ((bmmDims B M K N wf).lhsIdx j q 0).val = (j 0).val := by
  unfold DotDims.lhsIdx
  rw [dif_pos (show (0 : Fin (⟨3, ![B, M, K]⟩ : Shape).rank) ∈ (bmmDims B M K N wf).lhsBatch from List.mem_singleton.mpr rfl)]
  rfl
/-- … row coordinate `j 1` … -/
theorem bmm_lhs1 (j : (⟨3, ![B, M, N]⟩ : Shape).Idx) (q : (bmmDims B M K N wf).contr.Idx) :
    ((bmmDims B M K N wf).lhsIdx j q 1).val = (j 1).val := by
  unfold DotDims.lhsIdx
  rw [dif_neg (show ¬(1 : Fin (⟨3, ![B, M, K]⟩ : Shape).rank) ∈ (bmmDims B M K N wf).lhsBatch from by
        intro h; have hv : (1 : ℕ) = 0 := congrArg Fin.val (List.mem_singleton.mp h); exact absurd hv (by decide)),
    dif_pos (show (1 : Fin (⟨3, ![B, M, K]⟩ : Shape).rank) ∈ (bmmDims B M K N wf).lhsNonContracting from List.mem_singleton.mpr rfl)]
  rfl
/-- … and the contraction coordinate on the last axis. -/
theorem bmm_lhs2 (j : (⟨3, ![B, M, N]⟩ : Shape).Idx) (q : (bmmDims B M K N wf).contr.Idx) :
    ((bmmDims B M K N wf).lhsIdx j q 2).val = (q ⟨0, Nat.one_pos⟩).val :=
  (bmmDims B M K N wf).lhsIdx_val_of_single rfl j q
/-- The right operand's index: batch coordinate `j 0` … -/
theorem bmm_rhs0 (j : (⟨3, ![B, M, N]⟩ : Shape).Idx) (q : (bmmDims B M K N wf).contr.Idx) :
    ((bmmDims B M K N wf).rhsIdx j q 0).val = (j 0).val := by
  unfold DotDims.rhsIdx
  rw [dif_pos (show (0 : Fin (⟨3, ![B, K, N]⟩ : Shape).rank) ∈ (bmmDims B M K N wf).rhsBatch from List.mem_singleton.mpr rfl)]
  rfl
/-- … the contraction coordinate on the middle axis … -/
theorem bmm_rhs1 (j : (⟨3, ![B, M, N]⟩ : Shape).Idx) (q : (bmmDims B M K N wf).contr.Idx) :
    ((bmmDims B M K N wf).rhsIdx j q 1).val = (q ⟨0, Nat.one_pos⟩).val :=
  (bmmDims B M K N wf).rhsIdx_val_of_single rfl j q
/-- … and column coordinate `j 2`. -/
theorem bmm_rhs2 (j : (⟨3, ![B, M, N]⟩ : Shape).Idx) (q : (bmmDims B M K N wf).contr.Idx) :
    ((bmmDims B M K N wf).rhsIdx j q 2).val = (j 2).val := by
  unfold DotDims.rhsIdx
  rw [dif_neg (show ¬(2 : Fin (⟨3, ![B, K, N]⟩ : Shape).rank) ∈ (bmmDims B M K N wf).rhsBatch from by
        intro h; have hv : (2 : ℕ) = 0 := congrArg Fin.val (List.mem_singleton.mp h); exact absurd hv (by decide)),
    dif_pos (show (2 : Fin (⟨3, ![B, K, N]⟩ : Shape).rank) ∈ (bmmDims B M K N wf).rhsNonContracting from List.mem_singleton.mpr rfl)]
  rfl

/-- The batched product into the zero accumulator, at `(b, m, n)`: the sum over `k` of left `(b, m, k)` times right
`(b, k, n)`, the operands in any two float formats. -/
theorem bmm_zero_apply {φ₁ φ₂ : FTy} (l : FVec Ideal ⟨3, ![B, M, K]⟩ φ₁) (r : FVec Ideal ⟨3, ![B, K, N]⟩ φ₂)
    (b : Fin B) (m : Fin M) (n : Fin N) :
    FloatOps.matmul (bmmDims B M K N wf) none l r (constant (F := Ideal) ⟨3, ![B, M, N]⟩ .f32 0x00000000#32) (ix3 b m n)
      = ∑ k : Fin K, l (ix3 b m k) * r (ix3 b k n) := by
  rw [Ideal.matmul_constant_zero_apply, ← Equiv.sum_comp (contrEquiv1 (bmmDims B M K N wf) K rfl rfl).symm]
  refine Finset.sum_congr rfl fun k _ => ?_
  have hk := contrEquiv1_symm_val (bmmDims B M K N wf) K rfl rfl k
  have el : (bmmDims B M K N wf).lhsIdx (ix3 b m n) ((contrEquiv1 (bmmDims B M K N wf) K rfl rfl).symm k) = ix3 b m k :=
    funext fun ax => Fin.ext (by
      match ax with
      | ⟨0, _⟩ => exact bmm_lhs0 wf _ _
      | ⟨1, _⟩ => exact bmm_lhs1 wf _ _
      | ⟨2, _⟩ => exact (bmm_lhs2 wf _ _).trans hk)
  have er : (bmmDims B M K N wf).rhsIdx (ix3 b m n) ((contrEquiv1 (bmmDims B M K N wf) K rfl rfl).symm k) = ix3 b k n :=
    funext fun ax => Fin.ext (by
      match ax with
      | ⟨0, _⟩ => exact bmm_rhs0 wf _ _
      | ⟨1, _⟩ => exact (bmm_rhs1 wf _ _).trans hk
      | ⟨2, _⟩ => exact bmm_rhs2 wf _ _)
  rw [el, er]

end Bmm

/-! ## The maximum and the sum along the rows of a matrix -/

/-- The index of a matrix over row `i` with column `k` inserted is `(i, k)`. -/
theorem lift_row {a b : ℕ} (h : (⟨2, ![a, b]⟩ : Shape).Reduces [1] ⟨1, ![a]⟩) (i : Fin a) (k : Fin b) :
    h.lift (ix1 i) k = ix2 i k := by
  funext ax
  refine Fin.ext ?_
  match ax with
  | ⟨0, _⟩ => rfl
  | ⟨1, _⟩ => rfl

/-- A `multi_reduction <maximumf>` along the rows of an `[a, b]` matrix, at row `i`: the fold of `max` over the
columns, from the accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction (F := Ideal) .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  have e : (src ∘ h.lift (ix1 i)) = fun k : Fin b => src (ix2 i k) := funext fun k => congrArg src (lift_row h i k)
  show (Finset.univ : Finset (Fin b)).fold max (Ideal.ofBits .f32 acc) (src ∘ h.lift (ix1 i)) = _
  rw [e]
  rfl

/-- A `multi_reduction <add>` along the rows of an `[a, b]` matrix, at row `i`: the sum over the columns. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-! ## A weight matrix and a bias column laid out for a batched product -/

/-- A weight matrix `[m, k]` viewed `[1, m, k]` and repeated over the batch reads, at `(r, o, d)`, the matrix at
`(o, d)`: the same weights for every batch entry. -/
theorem weight_apply {B m k : ℕ} (x : (⟨2, ![m, k]⟩ : Shape).Idx → α)
    (h1 : (⟨2, ![m, k]⟩ : Shape).ShapeCasts ⟨2, ![m, k]⟩) (h2 : (⟨2, ![m, k]⟩ : Shape).ShapeCasts ⟨3, ![1, m, k]⟩)
    (h3 : (⟨3, ![1, m, k]⟩ : Shape).ShapeCasts ⟨3, ![1, m, k]⟩) (h4 : (⟨3, ![1, m, k]⟩ : Shape).Broadcasts ⟨3, ![B, m, k]⟩)
    (r : Fin B) (o : Fin m) (d : Fin k) :
    broadcastTo ⟨3, ![B, m, k]⟩ (shapeCast ⟨3, ![1, m, k]⟩ (shapeCast ⟨3, ![1, m, k]⟩ (shapeCast ⟨2, ![m, k]⟩ x h1) h2) h3) h4
        (ix3 r o d) = x (ix2 o d) := by
  rw [broadcastTo_1bc_abc_apply, shapeCast_self, shapeCast_ab_1ab_apply, shapeCast_self]

/-- A bias column `[1, m, 1]` repeated over the batch and along the last axis reads, at `(r, o, j)`, the column at
`(0, o, 0)`: one bias per output channel. -/
theorem bias_apply {B m c : ℕ} (x : (⟨3, ![1, m, 1]⟩ : Shape).Idx → α)
    (h1 : (⟨3, ![1, m, 1]⟩ : Shape).ShapeCasts ⟨3, ![1, m, 1]⟩) (h2 : (⟨3, ![1, m, 1]⟩ : Shape).Broadcasts ⟨3, ![B, m, c]⟩)
    (r : Fin B) (o : Fin m) (j : Fin c) :
    broadcastTo ⟨3, ![B, m, c]⟩ (shapeCast ⟨3, ![1, m, 1]⟩ x h1) h2 (ix3 r o j) = x (ix3 (0 : Fin 1) o (0 : Fin 1)) := by
  rw [broadcastTo_1b1_abc_apply, shapeCast_self]

/-! ## The leaky rectifier on a whole vector -/

/-- The leaky rectifier as the body spells it on a vector: where `x >= 0` keep `x`, elsewhere `slope * x`, the zero and
the slope splat over the shape. -/
def leakyV {s : Shape} (x : FVec Ideal s .f32) : FVec Ideal s .f32 :=
  select (cmpf (F := Ideal) .oge x (broadcast s (Scalar.ofBits (F := Ideal) .f32 0x00000000#32))) x
    (mulf (F := Ideal) (broadcast s (Scalar.ofBits (F := Ideal) .f32 0x3DCCCCCD#32)) x)

/-- At every element it is the specification's rectifier. -/
theorem leakyV_apply {s : Shape} (x : FVec Ideal s .f32) (i : s.Idx) : leakyV x i = Cert.Spec.leaky (x i) := rfl

/-! ## The softmax along the rows of a matrix -/

section Softmax
variable {a b : ℕ} (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)
  (hφ : FKind.Formats .f32)

/-- `exp (x - m)` with `m` the row maximum kept as a column and repeated along the row: the numerators. -/
def expRowV (L : FVec Ideal ⟨2, ![a, b]⟩ .f32) (accm : BitVec 32) (haccm : accm = FKind.maximumf.neutral .f32 hφ) :
    FVec Ideal ⟨2, ![a, b]⟩ .f32 :=
  exp (F := Ideal) (subf (F := Ideal) L
    (broadcastTo ⟨2, ![a, b]⟩ (shapeCast ⟨2, ![a, 1]⟩ (multiReduction (F := Ideal) .maximumf [1] ⟨1, ![a]⟩ L accm hr hφ haccm) hc) hb))

/-- A numerator at `(i, k)`: the exponential of the entry minus the fold of `max` over row `i`. -/
theorem expRowV_apply (L : FVec Ideal ⟨2, ![a, b]⟩ .f32) (accm : BitVec 32) (haccm : accm = FKind.maximumf.neutral .f32 hφ)
    (i : Fin a) (k : Fin b) :
    expRowV hr hc hb hφ L accm haccm (ix2 i k)
      = Ideal.exp (L (ix2 i k) - (Finset.univ : Finset (Fin b)).fold max (Ideal.ofBits .f32 accm) (fun k' => L (ix2 i k'))) := by
  unfold expRowV
  show Ideal.exp (L (ix2 i k) - broadcastTo ⟨2, ![a, b]⟩ _ hb (ix2 i k)) = _
  rw [broadcastTo_a1_ab_apply, shapeCast_a_a1_apply, rowMax_apply]

/-- The softmax of the rows stored as a `[1, a, b]` block, at `(u, i, k)`: the numerator at `(i, k)` over the sum of
row `i`'s numerators. -/
theorem softmaxRow_apply (L : FVec Ideal ⟨2, ![a, b]⟩ .f32) (accm : BitVec 32) (haccm : accm = FKind.maximumf.neutral .f32 hφ)
    (acc0 : BitVec 32) (hacc0 : acc0 = FKind.add.neutral .f32 hφ)
    (hc2 : (⟨2, ![a, b]⟩ : Shape).ShapeCasts ⟨3, ![1, a, b]⟩) (u : Fin 1) (i : Fin a) (k : Fin b) :
    shapeCast ⟨3, ![1, a, b]⟩
        (divf (F := Ideal) (expRowV hr hc hb hφ L accm haccm)
          (broadcastTo ⟨2, ![a, b]⟩ (shapeCast ⟨2, ![a, 1]⟩
            (multiReduction (F := Ideal) .add [1] ⟨1, ![a]⟩ (expRowV hr hc hb hφ L accm haccm) acc0 hr hφ hacc0) hc) hb))
        hc2 (ix3 u i k)
      = Ideal.div
          (Ideal.exp (L (ix2 i k) - (Finset.univ : Finset (Fin b)).fold max (Ideal.ofBits .f32 accm) (fun k' => L (ix2 i k'))))
          (∑ k'' : Fin b,
            Ideal.exp (L (ix2 i k'') - (Finset.univ : Finset (Fin b)).fold max (Ideal.ofBits .f32 accm) (fun k' => L (ix2 i k')))) := by
  rw [shapeCast_ab_1ab_apply]
  show Ideal.div (expRowV hr hc hb hφ L accm haccm (ix2 i k)) (broadcastTo ⟨2, ![a, b]⟩ _ hb (ix2 i k)) = _
  rw [broadcastTo_a1_ab_apply, shapeCast_a_a1_apply, rowSum_apply, expRowV_apply]
  exact congrArg _ (Finset.sum_congr rfl fun k'' _ => expRowV_apply hr hc hb hφ L accm haccm i k'')

end Softmax

end Cert.KernelIdeal.PayValue

end
-- ==== Proof.PayValue2.lean ====
/-
  The first two layers of the pairwise network, read at an index.  The scratch holds the key block transposed: entry
  (d, j) is feature d of key row j.  For query row r, key row j and second-layer channel o the value the body hands on is
      sum_k W2[o,k] * leaky (sum_d W1[k,d] * |q[r,d] - key[j,d]| + b1[k]),
  the bias b2 not yet added.  The two conversions to bf16 on the way into the products change nothing at the exact reals.
-/
import proofs.«167882_j1657857376688_2_alg».proof.Proof.Gen.KernelIdeal.Skeleton
import proofs.«167882_j1657857376688_2_alg».proof.Proof.Spec
import proofs.«167882_j1657857376688_2_alg».proof.Proof.PayValue1

noncomputable section

namespace Cert.KernelIdeal.PayValue

open Cert.KernelIdeal Cert.KernelIdeal.Gen Idealize.ShloMosaic Idealize.ShloMosaic.ValueIdx
open scoped BigOperators

/-- The scratch at `(d, j)` is the key block at `(0, j, d)`: the block with its two axes swapped. -/
theorem keysT_apply (x1 : Vec Ideal S1x512x128 .f32) (d : Fin 128) (j : Fin 512) :
    k0_pay2 (F := Ideal) x1 (ix2 d j) = x1 (ix3 (0 : Fin 1) j d) := by
  unfold k0_pay2
  refine (congrFun (shapeCast_self _ shapeCasts_S128x512_S128x512) (ix2 d j)).trans ?_
  refine (transpose_ix2_apply _ transposes_S512x128_p1_0_S128x512 d j).trans ?_
  exact shapeCast_1ab_ab_apply x1 shapeCasts_S1x512x128_S512x128 j d

/-- The features at `(r, d, j)`: the query block's `(r, d)` entry against the scratch's `(d, j)` entry, in absolute
difference. -/
theorem feat_apply (x0 : FVec Ideal S1x64x128 .f32) (s : FVec Ideal S128x512 .f32) (r : Fin 64) (d : Fin 128) (j : Fin 512) :
    truncf (F := Ideal) .bf16 (absf (F := Ideal) (subf (F := Ideal)
        (broadcastTo S64x128x512 (shapeCast S64x128x1 (shapeCast S64x128 x0 shapeCasts_S1x64x128_S64x128) shapeCasts_S64x128_S64x128x1)
          broadcasts_S64x128x1_S64x128x512)
        (broadcastTo S64x128x512 (shapeCast S1x128x512 s shapeCasts_S128x512_S1x128x512) broadcasts_S1x128x512_S64x128x512)))
      bitsLt_bf16_f32 (ix3 r d j)
      = FloatOps.absf (F := Ideal) (φ := .f32) ((x0 (ix3 (0 : Fin 1) r d) : EReal) - s (ix2 d j)) := by
  have e1 : broadcastTo S64x128x512 (shapeCast S64x128x1 (shapeCast S64x128 x0 shapeCasts_S1x64x128_S64x128) shapeCasts_S64x128_S64x128x1)
      broadcasts_S64x128x1_S64x128x512 (ix3 r d j) = x0 (ix3 (0 : Fin 1) r d) :=
    (broadcastTo_ab1_abc_apply _ _ r d j).trans ((shapeCast_ab_ab1_apply _ _ r d (0 : Fin 1)).trans (shapeCast_1ab_ab_apply x0 _ r d))
  have e2 : broadcastTo S64x128x512 (shapeCast S1x128x512 s shapeCasts_S128x512_S1x128x512) broadcasts_S1x128x512_S64x128x512
      (ix3 r d j) = s (ix2 d j) :=
    (broadcastTo_1bc_abc_apply _ _ r d j).trans (shapeCast_ab_1ab_apply s _ (0 : Fin 1) d j)
  exact congrArg₂ (fun p q : EReal => FloatOps.absf (F := Ideal) (φ := .f32) (p - q)) e1 e2

/-- The second layer's product at `(r, o, j)`, before its bias. -/
theorem hidden2_apply (x0 : Vec Ideal S1x64x128 .f32) (s : Vec Ideal S128x512 .f32) (x2 : Vec Ideal S64x128 .bf16)
    (x3 : Vec Ideal S1x64x1 .f32) (x4 : Vec Ideal S32x64 .bf16) (r : Fin 64) (o : Fin 32) (j : Fin 512) :
    k0_pay3 (F := Ideal) x0 s x2 x3 x4 (ix3 r o j)
      = ∑ k : Fin 64, (x4 (ix2 o k) : EReal) * Cert.Spec.leaky
          ((∑ d : Fin 128, (x2 (ix2 k d) : EReal)
              * FloatOps.absf (F := Ideal) (φ := .f32) ((x0 (ix3 (0 : Fin 1) r d) : EReal) - s (ix2 d j)))
            + x3 (ix3 (0 : Fin 1) k (0 : Fin 1))) := by
  unfold k0_pay3
  refine (bmm_zero_apply dot_S64x32x64_S64x64x512_S64x32x512_2_1_1_2_0_0_wf _ _ r o j).trans ?_
  refine Finset.sum_congr rfl fun k _ => ?_
  refine congrArg₂ (fun p q : EReal => p * q) (weight_apply x4 _ _ _ _ r o k) ?_
  refine (leakyV_apply _ (ix3 r k j)).trans (congrArg Cert.Spec.leaky ?_)
  refine congrArg₂ (fun p q : EReal => p + q) ?_ (bias_apply x3 _ _ r k j)
  refine (bmm_zero_apply dot_S64x64x128_S64x128x512_S64x64x512_2_1_1_2_0_0_wf _ _ r k j).trans ?_
  refine Finset.sum_congr rfl fun d _ => ?_
  exact congrArg₂ (fun p q : EReal => p * q) (weight_apply x2 _ _ _ _ r k d) (feat_apply x0 s r d j)

end Cert.KernelIdeal.PayValue

end
-- ==== Proof.PayValue3.lean ====
/-
  The last layer and the row softmax of the pairwise network, read at an index, as a function of the second layer's
  products H : [64, 32, 512] (query row, channel, key row).  The logit of query row r against key row j is
      sum_k W3[0,k] * leaky (H[r,k,j] + b2[k]) + b3,
  and the block the body stores is, at (0, r, j), exp (logit r j - m r) over the sum over j' of exp (logit r j' - m r),
  with m r the fold of max over the 512 keys of logit r, started from minus infinity.
-/
import proofs.«167882_j1657857376688_2_alg».proof.Proof.Gen.KernelIdeal.Skeleton
import proofs.«167882_j1657857376688_2_alg».proof.Proof.Spec
import proofs.«167882_j1657857376688_2_alg».proof.Proof.PayValue1

noncomputable section

namespace Cert.KernelIdeal.PayValue

open Cert.KernelIdeal Cert.KernelIdeal.Gen Idealize.ShloMosaic Idealize.ShloMosaic.ValueIdx
open scoped BigOperators

/-- The logits of the block as the body computes them: second bias, rectifier, the product with the one-row third
weight matrix, third bias, and the unit middle axis dropped. -/
def logitV (H : FVec Ideal S64x32x512 .f32) (x5 : FVec Ideal S1x32x1 .f32) (x6 : FVec Ideal S1x32 .bf16)
    (x7 : FVec Ideal S1x1x1 .f32) : FVec Ideal S64x512 .f32 :=
  shapeCast S64x512
    (addf (F := Ideal)
      (matmul (F := Ideal) (φ₁ := .bf16) (φ₂ := .bf16) dot_S64x1x32_S64x32x512_S64x1x512_2_1_1_2_0_0 none
        (broadcastTo S64x1x32
          (shapeCast S1x1x32 (shapeCast S1x1x32 (shapeCast S1x32 x6 shapeCasts_S1x32_S1x32) shapeCasts_S1x32_S1x1x32)
            shapeCasts_S1x1x32_S1x1x32)
          broadcasts_S1x1x32_S64x1x32)
        (truncf (F := Ideal) .bf16
          (leakyV (addf (F := Ideal) H
            (broadcastTo S64x32x512 (shapeCast S1x32x1 x5 shapeCasts_S1x32x1_S1x32x1) broadcasts_S1x32x1_S64x32x512)))
          bitsLt_bf16_f32)
        (constant (F := Ideal) S64x1x512 .f32 0x00000000#32))
      (broadcastTo S64x1x512 (shapeCast S1x1x1 x7 shapeCasts_S1x1x1_S1x1x1) broadcasts_S1x1x1_S64x1x512))
    shapeCasts_S64x1x512_S64x512

/-- The logit of query row `r` against key row `j`, from the second layer's products. -/
def logitOf (H : FVec Ideal S64x32x512 .f32) (x5 : FVec Ideal S1x32x1 .f32) (x6 : FVec Ideal S1x32 .bf16)
    (x7 : FVec Ideal S1x1x1 .f32) (r : Fin 64) (j : Fin 512) : EReal :=
  (∑ k : Fin 32, (x6 (ix2 (0 : Fin 1) k) : EReal)
      * Cert.Spec.leaky ((H (ix3 r k j) : EReal) + x5 (ix3 (0 : Fin 1) k (0 : Fin 1))))
    + x7 (ix3 (0 : Fin 1) (0 : Fin 1) (0 : Fin 1))

/-- The body's logits at `(r, j)`. -/
theorem logitV_apply (H : FVec Ideal S64x32x512 .f32) (x5 : FVec Ideal S1x32x1 .f32) (x6 : FVec Ideal S1x32 .bf16)
    (x7 : FVec Ideal S1x1x1 .f32) (r : Fin 64) (j : Fin 512) :
    logitV H x5 x6 x7 (ix2 r j) = logitOf H x5 x6 x7 r j := by
  unfold logitV logitOf
  refine (shapeCast_a1c_ac_apply _ _ r j).trans ?_
  refine (addf_apply _ _ _).trans ?_
  refine congrArg₂ (fun p q : EReal => p + q) ?_ (bias_apply x7 _ _ r (0 : Fin 1) j)
  refine (bmm_zero_apply dot_S64x1x32_S64x32x512_S64x1x512_2_1_1_2_0_0_wf _ _ r (0 : Fin 1) j).trans ?_
  refine Finset.sum_congr rfl fun k _ => ?_
  refine congrArg₂ (fun p q : EReal => p * q) (weight_apply x6 _ _ _ _ r (0 : Fin 1) k) ?_
  refine (leakyV_apply _ (ix3 r k j)).trans (congrArg Cert.Spec.leaky ?_)
  refine (addf_apply _ _ _).trans ?_
  exact congrArg (fun q : EReal => (H (ix3 r k j) : EReal) + q) (bias_apply x5 _ _ r k j)

/-- The block the body stores, at `(0, r, j)`: the softmax over the keys of row `r`'s logits. -/
theorem softmax_apply (H : FVec Ideal S64x32x512 .f32) (x5 : Vec Ideal S1x32x1 .f32) (x6 : Vec Ideal S1x32 .bf16)
    (x7 : Vec Ideal S1x1x1 .f32) (r : Fin 64) (j : Fin 512) :
    k0_pay1 (F := Ideal) H x5 x6 x7 (ix3 (0 : Fin 1) r j)
      = Ideal.div
          (Ideal.exp (logitOf H x5 x6 x7 r j
            - (Finset.univ : Finset (Fin 512)).fold max (Ideal.ofBits .f32 0xFF800000#32) (fun j' => logitOf H x5 x6 x7 r j')))
          (∑ j'' : Fin 512,
            Ideal.exp (logitOf H x5 x6 x7 r j''
              - (Finset.univ : Finset (Fin 512)).fold max (Ideal.ofBits .f32 0xFF800000#32) (fun j' => logitOf H x5 x6 x7 r j'))) := by
  unfold k0_pay1
  refine (softmaxRow_apply reduces_S64x512_S64 shapeCasts_S64_S64x1 broadcasts_S64x1_S64x512 (.inl rfl)
    (logitV H x5 x6 x7) 0xFF800000#32 rfl 0x00000000#32 rfl shapeCasts_S64x512_S1x64x512 (0 : Fin 1) r j).trans ?_
  simp only [logitV_apply]

end Cert.KernelIdeal.PayValue

end
-- ==== Proof.PayValue.lean ====
/-
  The body's stored block is the specification's softmax.  For the batch b the blocks come from, query row rowOf r and
  key row j, the value at (0, r, j) of what the body stores — the third layer and row softmax applied to the first two
  layers of the query block against the transposed key block — is G at (b, rowOf r, j): the scratch entry (d, j) is
  v[b, j, d], the query entry (r, d) is v[b, rowOf r, d], so the feature is |v[b, rowOf r, d] - v[b, j, d]|, and the three
  layers and the softmax are the specification's, sum for sum.
-/
import proofs.«167882_j1657857376688_2_alg».proof.Proof.Gen.KernelIdeal.Skeleton
import proofs.«167882_j1657857376688_2_alg».proof.Proof.Spec
import proofs.«167882_j1657857376688_2_alg».proof.Proof.PayValue2
import proofs.«167882_j1657857376688_2_alg».proof.Proof.PayValue3

noncomputable section

namespace Cert.KernelIdeal.PayValue

open Cert.KernelIdeal Cert.KernelIdeal.Gen Idealize.ShloMosaic Idealize.ShloMosaic.ValueIdx
open scoped BigOperators

section
variable (v : (⟨3, ![4, 512, 128]⟩ : Shape).Idx → EReal)
  (W1 : (⟨2, ![64, 128]⟩ : Shape).Idx → EReal) (b1 : (⟨1, ![64]⟩ : Shape).Idx → EReal)
  (W2 : (⟨2, ![32, 64]⟩ : Shape).Idx → EReal) (b2 : (⟨1, ![32]⟩ : Shape).Idx → EReal)
  (W3 : (⟨2, ![1, 32]⟩ : Shape).Idx → EReal) (b3 : (⟨1, ![1]⟩ : Shape).Idx → EReal)
  (b : Fin 4) (rowOf : Fin 64 → Fin 512)
  (x0 : Vec Ideal S1x64x128 .f32) (x1 : Vec Ideal S1x512x128 .f32) (x2 : Vec Ideal S64x128 .bf16)
  (x3 : Vec Ideal S1x64x1 .f32) (x4 : Vec Ideal S32x64 .bf16) (x5 : Vec Ideal S1x32x1 .f32)
  (x6 : Vec Ideal S1x32 .bf16) (x7 : Vec Ideal S1x1x1 .f32)

/-- The body's logit of block row `r` against key row `j'` is the specification's logit of rows `rowOf r` and `j'`
of batch `b`. -/
theorem logit_eq_spec
    (h0 : ∀ (r : Fin 64) (d : Fin 128), x0 (ix3 (0 : Fin 1) r d) = v (ix3 b (rowOf r) d))
    (h1 : ∀ (j : Fin 512) (d : Fin 128), x1 (ix3 (0 : Fin 1) j d) = v (ix3 b j d))
    (h2 : ∀ (o : Fin 64) (d : Fin 128), x2 (ix2 o d) = W1 (ix2 o d))
    (h3 : ∀ o : Fin 64, x3 (ix3 (0 : Fin 1) o (0 : Fin 1)) = b1 (ix1 o))
    (h4 : ∀ (o : Fin 32) (k : Fin 64), x4 (ix2 o k) = W2 (ix2 o k))
    (h5 : ∀ o : Fin 32, x5 (ix3 (0 : Fin 1) o (0 : Fin 1)) = b2 (ix1 o))
    (h6 : ∀ k : Fin 32, x6 (ix2 (0 : Fin 1) k) = W3 (ix2 (0 : Fin 1) k))
    (h7 : x7 (ix3 (0 : Fin 1) (0 : Fin 1) (0 : Fin 1)) = b3 (ix1 (0 : Fin 1)))
    (r : Fin 64) (j' : Fin 512) :
    logitOf (k0_pay3 (F := Ideal) x0 (k0_pay2 (F := Ideal) x1) x2 x3 x4) x5 x6 x7 r j'
      = Cert.Spec.logit v W1 b1 W2 b2 W3 b3 b (rowOf r) j' := by
  unfold logitOf Cert.Spec.logit Cert.Spec.h2 Cert.Spec.h1 Cert.Spec.phi
  simp only [hidden2_apply, keysT_apply, h0, h1, h2, h3, h4, h5, h6, h7]

/-- THE PAYLOAD AT AN INDEX: what the body stores at `(0, r, j)` is `G` at `(b, rowOf r, j)`. -/
theorem payload_eq_G
    (h0 : ∀ (r : Fin 64) (d : Fin 128), x0 (ix3 (0 : Fin 1) r d) = v (ix3 b (rowOf r) d))
    (h1 : ∀ (j : Fin 512) (d : Fin 128), x1 (ix3 (0 : Fin 1) j d) = v (ix3 b j d))
    (h2 : ∀ (o : Fin 64) (d : Fin 128), x2 (ix2 o d) = W1 (ix2 o d))
    (h3 : ∀ o : Fin 64, x3 (ix3 (0 : Fin 1) o (0 : Fin 1)) = b1 (ix1 o))
    (h4 : ∀ (o : Fin 32) (k : Fin 64), x4 (ix2 o k) = W2 (ix2 o k))
    (h5 : ∀ o : Fin 32, x5 (ix3 (0 : Fin 1) o (0 : Fin 1)) = b2 (ix1 o))
    (h6 : ∀ k : Fin 32, x6 (ix2 (0 : Fin 1) k) = W3 (ix2 (0 : Fin 1) k))
    (h7 : x7 (ix3 (0 : Fin 1) (0 : Fin 1) (0 : Fin 1)) = b3 (ix1 (0 : Fin 1)))
    (r : Fin 64) (j : Fin 512) :
    k0_pay1 (F := Ideal) (k0_pay3 (F := Ideal) x0 (k0_pay2 (F := Ideal) x1) x2 x3 x4) x5 x6 x7 (ix3 (0 : Fin 1) r j)
      = Cert.Spec.G v W1 b1 W2 b2 W3 b3 (ix3 b (rowOf r) j) := by
  refine (softmax_apply _ x5 x6 x7 r j).trans ?_
  simp only [logit_eq_spec v W1 b1 W2 b2 W3 b3 b rowOf x0 x1 x2 x3 x4 x5 x6 x7 h0 h1 h2 h3 h4 h5 h6 h7 r]
  rfl

end

end Cert.KernelIdeal.PayValue

end
-- ==== Proof.FrKernelIdealValue.lean ====
/-
  What the result array holds after the run, at the exact reals.  Point t = 8 * batch + tile writes
  back the block of rows 64 * tile .. 64 * tile + 63 of batch; the body's result there is, entry by
  entry, the softmax of the pair network's logits of the arguments (the specification's G), because
  the query block is those rows of the first argument, the scratch holds the transposed key block
  of the batch, and the weights reach the body as casts and reshapes of the other arguments.  The
  thirty-two blocks tile the result, so the whole array ends at G.
-/
import proofs.«167882_j1657857376688_2_alg».proof.Proof.FrKernelIdealLaunch
import proofs.«167882_j1657857376688_2_alg».proof.Proof.FrKernelIdealScratch
import proofs.«167882_j1657857376688_2_alg».proof.Proof.FrKernelIdealCover
import proofs.«167882_j1657857376688_2_alg».proof.Proof.PayValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- The specification's function of the seven arguments as core `c` holds them at launch. -/
abbrev Gm (c : Dev nD) : S4x512x512.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back is block `t` of the specification's function. -/
theorem flushed8_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after8, out_eq m c t]
  funext y
  obtain ⟨y0, r, j, rfl⟩ : ∃ (y0 : Fin 1) (r : Fin 64) (j : Fin 512), y = ix3 y0 r j := ⟨y 0, y 1, y 2, eq_ix3 y⟩
  obtain rfl : y0 = 0 := Subsingleton.elim _ _
  rw [View.read_apply]
  refine (Cert.KernelIdeal.PayValue.payload_eq_G _ _ _ _ _ _ _ (batchOf t) (rowOf t) _ _ _ _ _ _ _ _
    (blk0 m c t)
    (fun j d => (blk1 m c ⟨t.val - t.val % 8, by have := t.isLt; omega⟩ j d).trans
      (congrArg (fun b : Fin 4 => (m ((c : Thread nD τ).loc main_arg0) : S4x512x128.Idx → Elt Ideal .f32) (ix3 b j d))
        (Fin.ext (by show (t.val - t.val % 8) / 8 = t.val / 8; omega))))
    (blk2 m c t) (blk3 m c t) (blk4 m c t) (blk5 m c t) (blk6 m c t) (blk7 m c t) r j).trans ?_
  exact congrArg (Gm m c) (emb8 t r j).symm

/-- The result array after the run is the specification's function of the arguments. -/
theorem final8 (c : Dev nD) : (dats m 0 c).arrAt 8 cfg0.N = Gm m c :=
  (dats m 0 c).arrAt_eq_of_cover 8 (Gm m c) (fun t _ => flushed8_eq m c t) cover8

/-- The run, read: the result array at the specification's function, the arguments unchanged. -/
theorem run : θ_run defs (onTc (τ := τ) (main (F := Ideal))) ⟨m, fun _ => 0, ρ⟩ fun r => ∀ c : Dev nD,
      r.2.mem ((c.tc : Thread nD τ).loc main_v6) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Fr

end
-- ==== Proof.RefValue1.lean ====
/-
  The reference program's first layer, read at one index.

  For a batch b, rows i and j and a channel index, the reference's broadcast, subtract and abs give
  |v[b,i,d] - v[b,j,d]|; its first contraction with the bias added gives
  sum_d W1[o,d] * |v[b,i,d] - v[b,j,d]| + b1[o]; and its compare, multiply and select give the leaky
  rectifier of that number.  The contraction is printed with the feature first and the weight second,
  so each product is commuted once.
-/
import proofs.«167882_j1657857376688_2_alg».proof.Proof.Gen.ReferenceIdeal.Read
import proofs.«167882_j1657857376688_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S4x512x128, .f32⟩ : BufTy).Contents (Elt Ideal))
  (x1 : (⟨S64x128, .f32⟩ : BufTy).Contents (Elt Ideal))
  (x2 : (⟨S64, .f32⟩ : BufTy).Contents (Elt Ideal))

/-- The pairwise feature array at (b, i, j, d) is |v[b,i,d] - v[b,j,d]|. -/
theorem absDiff_apply (b : Fin 4) (i j : Fin 512) (d : Fin 128) :
    val_main_v5 (F := Ideal) x0 (ix4 b i j d) = Cert.Spec.phi x0 b i j d := by
  rw [val_main_v5_apply, val_main_v4_apply, val_main_v2_apply, val_main_v3_apply, val_main_v0_apply,
    val_main_v1_apply]
  have e0 : idx_main_v0 (idx_main_v2 (ix4 b i j d)) = ix3 b i d := by
    funext a; match a with | ⟨0, _⟩ => rfl | ⟨1, _⟩ => rfl | ⟨2, _⟩ => rfl
  have e1 : idx_main_v1 (idx_main_v3 (ix4 b i j d)) = ix3 b j d := by
    funext a; match a with | ⟨0, _⟩ => rfl | ⟨1, _⟩ => rfl | ⟨2, _⟩ => rfl
  rw [e0, e1]
  rfl

/-- The first layer before its rectifier, at (b, i, j, o): sum_d W1[o,d] * phi d + b1[o]. -/
theorem preAct1_apply (b : Fin 4) (i j : Fin 512) (o : Fin 64) :
    val_main_v9 (F := Ideal) x0 x1 x2 (ix4 b i j o)
      = (∑ d : Fin 128, x1 (ix2 o d) * Cert.Spec.phi x0 b i j d) + x2 (ix1 o) := by
  rw [val_main_v9_apply, val_main_v6_apply, val_main_v8_apply, val_main_v7_apply]
  have e2 : idx_main_v7 (idx_main_v8 (ix4 b i j o)) = ix1 o := by
    funext a; match a with | ⟨0, _⟩ => rfl
  rw [e2, Ideal.addf_def]
  refine congrArg (· + x2 (ix1 o)) (Finset.sum_congr rfl fun d _ => ?_)
  have el : lidx_main_v6 (ix4 b i j o) d = ix4 b i j d := by
    funext a; match a with | ⟨0, _⟩ => rfl | ⟨1, _⟩ => rfl | ⟨2, _⟩ => rfl | ⟨3, _⟩ => rfl
  have er : ridx_main_v6 (ix4 b i j o) d = ix2 o d := by
    funext a; match a with | ⟨0, _⟩ => rfl | ⟨1, _⟩ => rfl
  rw [el, er, absDiff_apply, mul_comm]

/-- The first layer at (b, i, j, o): the leaky rectifier of the number above. -/
theorem hidden1_apply (b : Fin 4) (i j : Fin 512) (o : Fin 64) :
    val_main_v14 (F := Ideal) x0 x1 x2 (ix4 b i j o) = Cert.Spec.h1 x0 x1 x2 b i j o := by
  rw [val_main_v14_apply, val_main_v11_apply, val_main_v13_apply, val_main_v10_apply, val_main_v12_apply,
    val_main_cst_apply, val_main_cst_0_apply, preAct1_apply]
  rfl

end Cert.ReferenceIdeal.RefValue

end
-- ==== Proof.RefValue2.lean ====
/-
  The reference program's second layer, read at one index: sum_k W2[o,k] * h1 k + b2[o], then the leaky
  rectifier.  As in the first layer the printed contraction has the activation first and the weight
  second, so each product is commuted once.
-/
import proofs.«167882_j1657857376688_2_alg».proof.Proof.RefValue1

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S4x512x128, .f32⟩ : BufTy).Contents (Elt Ideal))
  (x1 : (⟨S64x128, .f32⟩ : BufTy).Contents (Elt Ideal))
  (x2 : (⟨S64, .f32⟩ : BufTy).Contents (Elt Ideal))
  (x3 : (⟨S32x64, .f32⟩ : BufTy).Contents (Elt Ideal))
  (x4 : (⟨S32, .f32⟩ : BufTy).Contents (Elt Ideal))

/-- The second layer before its rectifier, at (b, i, j, o): sum_k W2[o,k] * h1 k + b2[o]. -/
theorem preAct2_apply (b : Fin 4) (i j : Fin 512) (o : Fin 32) :
    val_main_v18 (F := Ideal) x0 x1 x2 x3 x4 (ix4 b i j o)
      = (∑ k : Fin 64, x3 (ix2 o k) * Cert.Spec.h1 x0 x1 x2 b i j k) + x4 (ix1 o) := by
  rw [val_main_v18_apply, val_main_v15_apply, val_main_v17_apply, val_main_v16_apply]
  have e2 : idx_main_v16 (idx_main_v17 (ix4 b i j o)) = ix1 o := by
    funext a; match a with | ⟨0, _⟩ => rfl
  rw [e2, Ideal.addf_def]
  refine congrArg (· + x4 (ix1 o)) (Finset.sum_congr rfl fun k _ => ?_)
  have el : lidx_main_v15 (ix4 b i j o) k = ix4 b i j k := by
    funext a; match a with | ⟨0, _⟩ => rfl | ⟨1, _⟩ => rfl | ⟨2, _⟩ => rfl | ⟨3, _⟩ => rfl
  have er : ridx_main_v15 (ix4 b i j o) k = ix2 o k := by
    funext a; match a with | ⟨0, _⟩ => rfl | ⟨1, _⟩ => rfl
  rw [el, er, hidden1_apply, mul_comm]

/-- The second layer at (b, i, j, o): the leaky rectifier of the number above. -/
theorem hidden2_apply (b : Fin 4) (i j : Fin 512) (o : Fin 32) :
    val_main_v23 (F := Ideal) x0 x1 x2 x3 x4 (ix4 b i j o) = Cert.Spec.h2 x0 x1 x2 x3 x4 b i j o := by
  rw [val_main_v23_apply, val_main_v20_apply, val_main_v22_apply, val_main_v19_apply, val_main_v21_apply,
    val_main_cst_1_apply, val_main_cst_2_apply, preAct2_apply]
  rfl

end Cert.ReferenceIdeal.RefValue

end
-- ==== Proof.RefValue3.lean ====
/-
  The reference program's logits, read at one index: the third contraction has one output channel, so
  at (b, i, j, 0) it is sum_k W3[0,k] * h2 k + b3[0]; the reshape that drops the unit axis reads the
  same number at (b, i, j), because the row-major position of (b, i, j) among [4,512,512] is that of
  (b, i, j, 0) among [4,512,512,1].
-/
import proofs.«167882_j1657857376688_2_alg».proof.Proof.RefValue2

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S4x512x128, .f32⟩ : BufTy).Contents (Elt Ideal))
  (x1 : (⟨S64x128, .f32⟩ : BufTy).Contents (Elt Ideal))
  (x2 : (⟨S64, .f32⟩ : BufTy).Contents (Elt Ideal))
  (x3 : (⟨S32x64, .f32⟩ : BufTy).Contents (Elt Ideal))
  (x4 : (⟨S32, .f32⟩ : BufTy).Contents (Elt Ideal))
  (x5 : (⟨S1x32, .f32⟩ : BufTy).Contents (Elt Ideal))
  (x6 : (⟨S1, .f32⟩ : BufTy).Contents (Elt Ideal))

/-- The third layer at (b, i, j, 0): sum_k W3[0,k] * h2 k + b3[0]. -/
theorem logit4_apply (b : Fin 4) (i j : Fin 512) :
    val_main_v27 (F := Ideal) x0 x1 x2 x3 x4 x5 x6 (ix4 b i j (0 : Fin 1))
      = Cert.Spec.logit x0 x1 x2 x3 x4 x5 x6 b i j := by
  rw [val_main_v27_apply, val_main_v24_apply, val_main_v26_apply, val_main_v25_apply]
  have e2 : idx_main_v25 (idx_main_v26 (ix4 b i j (0 : Fin 1))) = ix1 (0 : Fin 1) := by
    funext a; match a with | ⟨0, _⟩ => rfl
  rw [e2, Ideal.addf_def]
  unfold Cert.Spec.logit
  refine congrArg (· + x6 (ix1 (0 : Fin 1))) (Finset.sum_congr rfl fun k _ => ?_)
  have el : lidx_main_v24 (ix4 b i j (0 : Fin 1)) k = ix4 b i j k := by
    funext a; match a with | ⟨0, _⟩ => rfl | ⟨1, _⟩ => rfl | ⟨2, _⟩ => rfl | ⟨3, _⟩ => rfl
  have er : ridx_main_v24 (ix4 b i j (0 : Fin 1)) k = ix2 (0 : Fin 1) k := by
    funext a; match a with | ⟨0, _⟩ => rfl | ⟨1, _⟩ => rfl
  rw [el, er, hidden2_apply, mul_comm]

/-- The row-major position of (b, i, j) read back in four coordinates with a last unit axis is (b, i, j, 0). -/
theorem dropUnit_index (b : Fin 4) (i j : Fin 512) : idx_main_v28 (ix3 b i j) = ix4 b i j (0 : Fin 1) := by
  have hb := b.isLt; have hi := i.isLt; have hj := j.isLt
  funext a
  apply Fin.ext
  match a with
  | ⟨0, _⟩ => show ((b.val * 512 + i.val) * 512 + j.val) / 262144 = b.val; omega
  | ⟨1, _⟩ => show ((b.val * 512 + i.val) * 512 + j.val) / 512 % 512 = i.val; omega
  | ⟨2, _⟩ => show ((b.val * 512 + i.val) * 512 + j.val) / 1 % 512 = j.val; omega
  | ⟨3, _⟩ => rfl

/-- The logit array at (b, i, j). -/
theorem logit_apply (b : Fin 4) (i j : Fin 512) :
    val_main_v28 (F := Ideal) x0 x1 x2 x3 x4 x5 x6 (ix3 b i j) = Cert.Spec.logit x0 x1 x2 x3 x4 x5 x6 b i j := by
  rw [val_main_v28_apply, dropUnit_index, logit4_apply]

end Cert.ReferenceIdeal.RefValue

end
-- ==== Proof.RefValue.lean ====
/-
  The reference program's softmax over the keys, read at one index, and the whole reference as the
  specification.

  The row maximum is the host's reduce with a maximum body over the key axis from minus infinity:
  at (b, i) the fold of max from minus infinity over the 512 logits of that row; the further maximum
  with a broadcast minus infinity changes nothing.  The exponentials are exp (logit - row maximum);
  their row sum is the host's sum from the zero word, the plain sum over the keys; the result is the
  extended reals' quotient of the two.
-/
import proofs.«167882_j1657857376688_2_alg».proof.Proof.RefValue3

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S4x512x128, .f32⟩ : BufTy).Contents (Elt Ideal))
  (x1 : (⟨S64x128, .f32⟩ : BufTy).Contents (Elt Ideal))
  (x2 : (⟨S64, .f32⟩ : BufTy).Contents (Elt Ideal))
  (x3 : (⟨S32x64, .f32⟩ : BufTy).Contents (Elt Ideal))
  (x4 : (⟨S32, .f32⟩ : BufTy).Contents (Elt Ideal))
  (x5 : (⟨S1x32, .f32⟩ : BufTy).Contents (Elt Ideal))
  (x6 : (⟨S1, .f32⟩ : BufTy).Contents (Elt Ideal))

/-- Dropping the key axis of [4,512,512] leaves [4,512]. -/
theorem reduces_keys : S4x512x512.Reduces [2] S4x512 := by decide

/-- The reduced index (b, i) with key j put back is (b, i, j). -/
theorem lift_keys (b : Fin 4) (i : Fin 512) (k : Fin (S4x512x512.size 2)) :
    reduces_keys.lift (ix2 b i) k = ix3 b i (⟨k.val, k.isLt⟩ : Fin 512) := by
  funext c; apply Fin.ext
  match c with
  | ⟨0, _⟩ => rfl
  | ⟨1, _⟩ => rfl
  | ⟨2, _⟩ => rfl

/-- The single-precision word of minus infinity denotes the least extended real, so a maximum with it is the other operand. -/
theorem negInf_max (y : EReal) : max (Ideal.ofBits .f32 0xFF800000#32) y = y := by
  simp [Ideal.ofBits, Ideal.ieee]

/-- The host's reduce with a maximum body over the key axis from the minus-infinity word, at (b, i), for any array:
    the fold of max from minus infinity over that row. -/
theorem reduceMax_keys (y : FVec Ideal S4x512x512 .f32) (b : Fin 4) (i : Fin 512) :
    Host.reduce (FloatOps.maximumf (F := Ideal) (φ := .f32)) y (val_main_cst_3 (F := Ideal))
        reducesTo_S4x512x512_S4x512_d2 h_S_ (ix2 b i)
      = (Finset.univ : Finset (Fin 512)).fold max (Ideal.ofBits .f32 0xFF800000#32) (fun j => y (ix3 b i j)) := by
  refine (Host.reduce_eq_fold_single (FloatOps.maximumf (F := Ideal) (φ := .f32)) y _
    reducesTo_S4x512x512_S4x512_d2 reduces_keys h_S_ (ix2 b i)).trans ?_
  have hf : (y ∘ reduces_keys.lift (ix2 b i)) = fun j : Fin 512 => y (ix3 b i j) :=
    funext fun k => congrArg y (lift_keys b i k)
  exact congrArg (fun f => Finset.fold max (Ideal.ofBits .f32 0xFF800000#32) f (Finset.univ : Finset (Fin 512))) hf

/-- The reference's maximum reduce at (b, i): the fold of max from minus infinity over that row's logits. -/
theorem rowMax_reduce_apply (b : Fin 4) (i : Fin 512) :
    val_main_v29 (F := Ideal) x0 x1 x2 x3 x4 x5 x6 (ix2 b i) = Cert.Spec.rowMax x0 x1 x2 x3 x4 x5 x6 b i := by
  unfold val_main_v29
  refine (reduceMax_keys (val_main_v28 (F := Ideal) x0 x1 x2 x3 x4 x5 x6) b i).trans ?_
  unfold Cert.Spec.rowMax
  refine congrArg (fun f => Finset.fold max (Ideal.ofBits .f32 0xFF800000#32) f (Finset.univ : Finset (Fin 512)))
    (funext fun j => ?_)
  exact logit_apply x0 x1 x2 x3 x4 x5 x6 b i j

/-- The row maximum as the reference broadcasts it back over the keys, at (b, i, j). -/
theorem rowMax_bcast_apply (b : Fin 4) (i j : Fin 512) :
    val_main_v33 (F := Ideal) x0 x1 x2 x3 x4 x5 x6 (ix3 b i j) = Cert.Spec.rowMax x0 x1 x2 x3 x4 x5 x6 b i := by
  rw [val_main_v33_apply, val_main_v32_apply]
  have e : idx_main_v32 (idx_main_v33 (ix3 b i j)) = ix2 b i := by
    funext a; match a with | ⟨0, _⟩ => rfl | ⟨1, _⟩ => rfl
  rw [e, val_main_v31_apply, val_main_v30_apply, val_main_cst_4_apply, rowMax_reduce_apply]
  exact negInf_max _

/-- exp (logit - row maximum) at (b, i, j). -/
theorem expShift_apply (b : Fin 4) (i j : Fin 512) :
    val_main_v35 (F := Ideal) x0 x1 x2 x3 x4 x5 x6 (ix3 b i j) = Cert.Spec.ex x0 x1 x2 x3 x4 x5 x6 b i j := by
  rw [val_main_v35_apply, val_main_v34_apply, logit_apply, rowMax_bcast_apply]
  rfl

/-- The row sum of the exponentials as the reference broadcasts it back over the keys, at (b, i, j). -/
theorem expSum_bcast_apply (b : Fin 4) (i j : Fin 512) :
    val_main_v38 (F := Ideal) x0 x1 x2 x3 x4 x5 x6 (ix3 b i j)
      = ∑ j' : Fin 512, Cert.Spec.ex x0 x1 x2 x3 x4 x5 x6 b i j' := by
  rw [val_main_v38_apply, val_main_v37_apply]
  have e : idx_main_v37 (idx_main_v38 (ix3 b i j)) = ix2 b i := by
    funext a; match a with | ⟨0, _⟩ => rfl | ⟨1, _⟩ => rfl
  rw [e, val_main_v36_apply, val_main_cst_5_apply, Ideal.ofBits_def, Ideal.ofBits_zero_f32, zero_add]
  refine Finset.sum_congr rfl fun k _ => ?_
  have ek : idx_main_v36 (ix2 b i) k = ix3 b i k := by
    funext a; match a with | ⟨0, _⟩ => rfl | ⟨1, _⟩ => rfl | ⟨2, _⟩ => rfl
  rw [ek, expShift_apply]

/-- The reference's result at (b, i, j): the quotient of exp (logit - row maximum) by the row's sum of them. -/
theorem softmax_apply (b : Fin 4) (i j : Fin 512) :
    val_main_v39 (F := Ideal) x0 x1 x2 x3 x4 x5 x6 (ix3 b i j)
      = Ideal.div (Cert.Spec.ex x0 x1 x2 x3 x4 x5 x6 b i j) (∑ j' : Fin 512, Cert.Spec.ex x0 x1 x2 x3 x4 x5 x6 b i j') := by
  rw [val_main_v39_apply, expShift_apply, expSum_bcast_apply]
  rfl

/-- The reference program computes the specification. -/
theorem ref_eq_G :
    Cert.ReferenceIdeal.Read.val_main_v39 (F := Ideal) x0 x1 x2 x3 x4 x5 x6 = Cert.Spec.G x0 x1 x2 x3 x4 x5 x6 := by
  funext y
  rw [eq_ix3 y]
  exact softmax_apply x0 x1 x2 x3 x4 x5 x6 (y 0) (y 1) (y 2)

end Cert.ReferenceIdeal.RefValue

end
-- ==== Proof.lean ====
/-
  Both programs compute, for every batch b and rows i, j of the [4, 512, 128] argument v, the softmax over
  j of the logits of a three-layer network applied to |v[b,i,:] - v[b,j,:]| (weights W1, W2, W3, biases
  b1, b2, b3, leaky rectifier of slope the single-precision number nearest one tenth).  The kernel does it
  tile by tile: a grid of 4 batches by 8 tiles of 64 query rows; at the first tile of a batch it keeps the
  transposed key block of the batch in a scratch, which the later tiles of the batch read; each layer is a
  batched matrix product with the key index as the last axis; the row softmax divides by the row sum.  The
  reference is the same network written over the whole [4, 512, 512, ·] arrays.  At the exact reals the two
  agree entry by entry: a change of float format is the identity, a matrix product is its sum of products
  whatever the operand order (multiplication of extended reals commutes), the maximum of a row folded from
  minus infinity is the same fold, and both quotients are the extended reals' division.  No finiteness of the
  inputs is used.

  Frames: each kernel program is run through the pipeline's launch rule with the first argument's buffer held
  in two halves (two windows read it); the reference's frame is its run with the result dropped.  The
  idealization rewrote nothing, so the preserves conjunct is trivial.
-/
import proofs.«167882_j1657857376688_2_alg».proof.Defs
import proofs.«167882_j1657857376688_2_alg».proof.Proof.FrKernelLaunch
import proofs.«167882_j1657857376688_2_alg».proof.Proof.FrKernelIdealValue
import proofs.«167882_j1657857376688_2_alg».proof.Proof.RefValue
import proofs.«167882_j1657857376688_2_alg».proof.Proof.Gen.ReferenceIdeal.Run
import proofs.«167882_j1657857376688_2_alg».proof.Proof.Gen.ReferenceIdeal.Read
import proofs.«167882_j1657857376688_2_alg».proof.Proof.Gen.Pre_finite_inputs
import Idealize.ShloMosaic.Adequacy
import Idealize.ShloMosaic.Init

noncomputable section

namespace Cert.Proof

open Idealize.ShloMosaic Idealize.SL.Sem

/-- The kernel as printed runs to its end and keeps its arguments. -/
theorem frame_k : Cert.frame_Kernel := fun m ρ _ => Cert.Kernel.Fr.frame m ρ

/-- So does the kernel read at the exact reals. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact reals the kernel's result array and the reference's are the same function of arguments that agree. -/
theorem algebraic : Cert.algebraic_KernelIdeal_ReferenceIdeal := by
  intro m ρ m' ρ' _ hagree
  refine ⟨fun c => Cert.KernelIdeal.Fr.Gm m c, Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq_G,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
